-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x512x1024 : Shape := ⟨3, ![128, 512, 1024]⟩
abbrev S1024x9 : Shape := ⟨2, ![1024, 9]⟩
abbrev S9 : Shape := ⟨1, ![9]⟩
abbrev S128x512 : Shape := ⟨2, ![128, 512]⟩
abbrev S_ : Shape := ⟨0, ![]⟩

class Facts : Prop where
  bcast_S_S128x512x1024 : S_.BroadcastsInDim S128x512x1024 (![] : Fin 0 → Fin S128x512x1024.rank)
  reducesTo_S128x512x1024_S_d0_1_2 : S128x512x1024.ReducesTo [0, 1, 2] S_
  h_S_ : 0 < S_.numel
  bcast_S_S1024x9 : S_.BroadcastsInDim S1024x9 (![] : Fin 0 → Fin S1024x9.rank)
  reducesTo_S1024x9_S_d0_1 : S1024x9.ReducesTo [0, 1] S_
  bcast_S_S9 : S_.BroadcastsInDim S9 (![] : Fin 0 → Fin S9.rank)
  reducesTo_S9_S_d0 : S9.ReducesTo [0] S_

variable [Facts]

def fn {F : FTy → Type} [FloatOps F] (main_arg0 : FVec F S128x512x1024 .f32) (main_arg1 : FVec F S1024x9 .f32) (main_arg2 : FVec F S9 .f32) (main_arg3 : IVec S128x512 32) : IVec S_ 1 :=
  let main_v0 : FVec F S128x512x1024 .f32 := Host.absf main_arg0
  let main_cst : FVec F S_ .f32 := constant S_ .f32 0x7F800000#32
  let main_v1 : FVec F S128x512x1024 .f32 := broadcastInDim S128x512x1024 ![] bcast_S_S128x512x1024 main_cst
  let main_v2 : IVec S128x512x1024 1 := cmpf .olt main_v0 main_v1
  let main_c : IVec S_ 1 := constantI S_ 1 1#1
  let main_v3 : IVec S_ 1 := (fun x v => Host.reduce IntOp.andi x v reducesTo_S128x512x1024_S_d0_1_2 h_S_) main_v2 main_c
  let main_v4 : FVec F S1024x9 .f32 := Host.absf main_arg1
  let main_cst_0 : FVec F S_ .f32 := constant S_ .f32 0x7F800000#32
  let main_v5 : FVec F S1024x9 .f32 := broadcastInDim S1024x9 ![] bcast_S_S1024x9 main_cst_0
  let main_v6 : IVec S1024x9 1 := cmpf .olt main_v4 main_v5
  let main_c_1 : IVec S_ 1 := constantI S_ 1 1#1
  let main_v7 : IVec S_ 1 := (fun x v => Host.reduce IntOp.andi x v reducesTo_S1024x9_S_d0_1 h_S_) main_v6 main_c_1
  let main_v8 : IVec S_ 1 := andi main_v3 main_v7
  let main_v9 : FVec F S9 .f32 := Host.absf main_arg2
  let main_cst_2 : FVec F S_ .f32 := constant S_ .f32 0x7F800000#32
  let main_v10 : FVec F S9 .f32 := broadcastInDim S9 ![] bcast_S_S9 main_cst_2
  let main_v11 : IVec S9 1 := cmpf .olt main_v9 main_v10
  let main_c_3 : IVec S_ 1 := constantI S_ 1 1#1
  let main_v12 : IVec S_ 1 := (fun x v => Host.reduce IntOp.andi x v reducesTo_S9_S_d0 h_S_) main_v11 main_c_3
  let main_v13 : IVec S_ 1 := andi main_v8 main_v12
  main_v13
-- ==== Kernel.lean ====
abbrev S128x512x1024 : Shape := ⟨3, ![128, 512, 1024]⟩
abbrev S1024x9 : Shape := ⟨2, ![1024, 9]⟩
abbrev S9 : Shape := ⟨1, ![9]⟩
abbrev S128x512 : Shape := ⟨2, ![128, 512]⟩
abbrev S65536x1024 : Shape := ⟨2, ![65536, 1024]⟩
abbrev S65536x9 : Shape := ⟨2, ![65536, 9]⟩
abbrev S2048x1024 : Shape := ⟨2, ![2048, 1024]⟩
abbrev S2048x9 : Shape := ⟨2, ![2048, 9]⟩
abbrev S128x512x9 : Shape := ⟨3, ![128, 512, 9]⟩
abbrev S_ : Shape := ⟨0, ![]⟩
abbrev S128x512x1 : Shape := ⟨3, ![128, 512, 1]⟩
abbrev S1 : Shape := ⟨1, ![1]⟩
abbrev S1x1x1 : Shape := ⟨3, ![1, 1, 1]⟩
abbrev S1x1x9 : Shape := ⟨3, ![1, 1, 9]⟩

abbrev nBuf : Space → Nat
  | .hbm => 79
  | .vmem => 5
  | .smem => 0
  | _ => 0

abbrev bufTy : (tb : Table) → Fin (tcTables nBuf tb) → BufTy
  | .hbm, ⟨0, _⟩ => ⟨S128x512x1024, .f32⟩
  | .hbm, ⟨1, _⟩ => ⟨S1024x9, .f32⟩
  | .hbm, ⟨2, _⟩ => ⟨S9, .f32⟩
  | .hbm, ⟨3, _⟩ => ⟨S128x512, .i32⟩
  | .hbm, ⟨4, _⟩ => ⟨S65536x1024, .f32⟩
  | .hbm, ⟨5, _⟩ => ⟨S65536x9, .f32⟩
  | .hbm, ⟨6, _⟩ => ⟨S128x512x9, .f32⟩
  | .hbm, ⟨7, _⟩ => ⟨S_, .i32⟩
  | .hbm, ⟨8, _⟩ => ⟨S128x512, .i32⟩
  | .hbm, ⟨9, _⟩ => ⟨S128x512, .i32⟩
  | .hbm, ⟨10, _⟩ => ⟨S128x512, .i32⟩
  | .hbm, ⟨11, _⟩ => ⟨S128x512, .i32⟩
  | .hbm, ⟨12, _⟩ => ⟨S128x512, .i32⟩
  | .hbm, ⟨13, _⟩ => ⟨S128x512x1, .i32⟩
  | .hbm, ⟨14, _⟩ => ⟨S_, .i32⟩
  | .hbm, ⟨15, _⟩ => ⟨S128x512x1, .i32⟩
  | .hbm, ⟨16, _⟩ => ⟨S128x512x1, .i1⟩
  | .hbm, ⟨17, _⟩ => ⟨S_, .i32⟩
  | .hbm, ⟨18, _⟩ => ⟨S128x512x1, .i32⟩
  | .hbm, ⟨19, _⟩ => ⟨S128x512x1, .i32⟩
  | .hbm, ⟨20, _⟩ => ⟨S128x512x1, .i32⟩
  | .hbm, ⟨21, _⟩ => ⟨S1, .i32⟩
  | .hbm, ⟨22, _⟩ => ⟨S_, .i32⟩
  | .hbm, ⟨23, _⟩ => ⟨S128x512x1, .i32⟩
  | .hbm, ⟨24, _⟩ => ⟨S128x512x1, .i1⟩
  | .hbm, ⟨25, _⟩ => ⟨S1x1x1, .i32⟩
  | .hbm, ⟨26, _⟩ => ⟨S128x512x1, .i32⟩
  | .hbm, ⟨27, _⟩ => ⟨S128x512x1, .i1⟩
  | .hbm, ⟨28, _⟩ => ⟨S128x512x1, .i1⟩
  | .hbm, ⟨29, _⟩ => ⟨S_, .i1⟩
  | .hbm, ⟨30, _⟩ => ⟨S128x512, .i1⟩
  | .hbm, ⟨31, _⟩ => ⟨S128x512x9, .f32⟩
  | .hbm, ⟨32, _⟩ => ⟨S128x512x9, .i1⟩
  | .hbm, ⟨33, _⟩ => ⟨S_, .f32⟩
  | .hbm, ⟨34, _⟩ => ⟨S128x512x9, .f32⟩
  | .hbm, ⟨35, _⟩ => ⟨S128x512x9, .f32⟩
  | .hbm, ⟨36, _⟩ => ⟨S_, .i32⟩
  | .hbm, ⟨37, _⟩ => ⟨S128x512, .i32⟩
  | .hbm, ⟨38, _⟩ => ⟨S128x512, .i1⟩
  | .hbm, ⟨39, _⟩ => ⟨S_, .i32⟩
  | .hbm, ⟨40, _⟩ => ⟨S128x512, .i32⟩
  | .hbm, ⟨41, _⟩ => ⟨S128x512, .i32⟩
  | .hbm, ⟨42, _⟩ => ⟨S128x512, .i32⟩
  | .hbm, ⟨43, _⟩ => ⟨S128x512x1, .i32⟩
  | .hbm, ⟨44, _⟩ => ⟨S1, .i32⟩
  | .hbm, ⟨45, _⟩ => ⟨S_, .i32⟩
  | .hbm, ⟨46, _⟩ => ⟨S128x512x1, .i32⟩
  | .hbm, ⟨47, _⟩ => ⟨S128x512x1, .i1⟩
  | .hbm, ⟨48, _⟩ => ⟨S1x1x1, .i32⟩
  | .hbm, ⟨49, _⟩ => ⟨S128x512x1, .i32⟩
  | .hbm, ⟨50, _⟩ => ⟨S128x512x1, .i1⟩
  | .hbm, ⟨51, _⟩ => ⟨S128x512x1, .i1⟩
  | .hbm, ⟨52, _⟩ => ⟨S_, .i1⟩
  | .hbm, ⟨53, _⟩ => ⟨S128x512, .i1⟩
  | .hbm, ⟨54, _⟩ => ⟨S128x512, .i32⟩
  | .hbm, ⟨55, _⟩ => ⟨S_, .i32⟩
  | .hbm, ⟨56, _⟩ => ⟨S128x512, .i32⟩
  | .hbm, ⟨57, _⟩ => ⟨S128x512, .i32⟩
  | .hbm, ⟨58, _⟩ => ⟨S128x512, .f32⟩
  | .hbm, ⟨59, _⟩ => ⟨S128x512x1, .f32⟩
  | .hbm, ⟨60, _⟩ => ⟨S128x512x9, .f32⟩
  | .hbm, ⟨61, _⟩ => ⟨S128x512x9, .f32⟩
  | .hbm, ⟨62, _⟩ => ⟨S1x1x9, .f32⟩
  | .hbm, ⟨63, _⟩ => ⟨S128x512x9, .f32⟩
  | .hbm, ⟨64, _⟩ => ⟨S128x512x9, .f32⟩
  | .hbm, ⟨65, _⟩ => ⟨S_, .f32⟩
  | .hbm, ⟨66, _⟩ => ⟨S128x512, .f32⟩
  | .hbm, ⟨67, _⟩ => ⟨S_, .f32⟩
  | .hbm, ⟨68, _⟩ => ⟨S128x512, .f32⟩
  | .hbm, ⟨69, _⟩ => ⟨S128x512, .f32⟩
  | .hbm, ⟨70, _⟩ => ⟨S128x512x1, .f32⟩
  | .hbm, ⟨71, _⟩ => ⟨S128x512x9, .f32⟩
  | .hbm, ⟨72, _⟩ => ⟨S128x512x9, .f32⟩
  | .hbm, ⟨73, _⟩ => ⟨S128x512x9, .f32⟩
  | .hbm, ⟨74, _⟩ => ⟨S_, .f32⟩
  | .hbm, ⟨75, _⟩ => ⟨S128x512, .f32⟩
  | .hbm, ⟨76, _⟩ => ⟨S128x512x1, .f32⟩
  | .hbm, ⟨77, _⟩ => ⟨S128x512x9, .f32⟩
  | .hbm, ⟨78, _⟩ => ⟨S128x512x9, .f32⟩
  | .local _ .vmem, ⟨0, _⟩ => ⟨S2048x1024, .f32⟩
  | .local _ .vmem, ⟨1, _⟩ => ⟨S2048x1024, .f32⟩
  | .local _ .vmem, ⟨2, _⟩ => ⟨S1024x9, .f32⟩
  | .local _ .vmem, ⟨3, _⟩ => ⟨S2048x9, .f32⟩
  | .local _ .vmem, ⟨4, _⟩ => ⟨S2048x9, .f32⟩
  | _, _ => ⟨S128x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_v3 : Ref sig .tc := ⟨.hbm, 8, rfl⟩
abbrev main_v4 : Ref sig .tc := ⟨.hbm, 9, rfl⟩
abbrev main_call0_v0 : Ref sig .tc := ⟨.hbm, 10, rfl⟩
abbrev main_call0_v1_0 : Ref sig .tc := ⟨.hbm, 11, rfl⟩
abbrev main_v5 : Ref sig .tc := ⟨.hbm, 12, rfl⟩
abbrev main_v6 : Ref sig .tc := ⟨.hbm, 13, rfl⟩
abbrev main_call1_c : Ref sig .tc := ⟨.hbm, 14, rfl⟩
abbrev main_call1_v0 : Ref sig .tc := ⟨.hbm, 15, rfl⟩
abbrev main_call1_v1 : Ref sig .tc := ⟨.hbm, 16, rfl⟩
abbrev main_call1_c_0 : Ref sig .tc := ⟨.hbm, 17, rfl⟩
abbrev main_call1_v2 : Ref sig .tc := ⟨.hbm, 18, rfl⟩
abbrev main_call1_v3 : Ref sig .tc := ⟨.hbm, 19, rfl⟩
abbrev main_call1_v4 : Ref sig .tc := ⟨.hbm, 20, rfl⟩
abbrev main_call1_c_1 : Ref sig .tc := ⟨.hbm, 21, rfl⟩
abbrev main_call1_c_2 : Ref sig .tc := ⟨.hbm, 22, rfl⟩
abbrev main_call1_v5 : Ref sig .tc := ⟨.hbm, 23, rfl⟩
abbrev main_call1_v6 : Ref sig .tc := ⟨.hbm, 24, rfl⟩
abbrev main_call1_v7 : Ref sig .tc := ⟨.hbm, 25, rfl⟩
abbrev main_call1_v8 : Ref sig .tc := ⟨.hbm, 26, rfl⟩
abbrev main_call1_v9 : Ref sig .tc := ⟨.hbm, 27, rfl⟩
abbrev main_call1_v10 : Ref sig .tc := ⟨.hbm, 28, rfl⟩
abbrev main_call1_c_3 : Ref sig .tc := ⟨.hbm, 29, rfl⟩
abbrev main_call1_v11 : Ref sig .tc := ⟨.hbm, 30, rfl⟩
abbrev main_call1_v12 : Ref sig .tc := ⟨.hbm, 31, rfl⟩
abbrev main_call1_v13 : Ref sig .tc := ⟨.hbm, 32, rfl⟩
abbrev main_call1_cst : Ref sig .tc := ⟨.hbm, 33, rfl⟩
abbrev main_call1_v14 : Ref sig .tc := ⟨.hbm, 34, rfl⟩
abbrev main_v7 : Ref sig .tc := ⟨.hbm, 35, rfl⟩
abbrev main_call2_c : Ref sig .tc := ⟨.hbm, 36, rfl⟩
abbrev main_call2_v0 : Ref sig .tc := ⟨.hbm, 37, rfl⟩
abbrev main_call2_v1 : Ref sig .tc := ⟨.hbm, 38, rfl⟩
abbrev main_call2_c_0 : Ref sig .tc := ⟨.hbm, 39, rfl⟩
abbrev main_call2_v2 : Ref sig .tc := ⟨.hbm, 40, rfl⟩
abbrev main_call2_v3 : Ref sig .tc := ⟨.hbm, 41, rfl⟩
abbrev main_call2_v4 : Ref sig .tc := ⟨.hbm, 42, rfl⟩
abbrev main_call2_v5 : Ref sig .tc := ⟨.hbm, 43, rfl⟩
abbrev main_call2_c_1 : Ref sig .tc := ⟨.hbm, 44, rfl⟩
abbrev main_call2_c_2 : Ref sig .tc := ⟨.hbm, 45, rfl⟩
abbrev main_call2_v6 : Ref sig .tc := ⟨.hbm, 46, rfl⟩
abbrev main_call2_v7 : Ref sig .tc := ⟨.hbm, 47, rfl⟩
abbrev main_call2_v8 : Ref sig .tc := ⟨.hbm, 48, rfl⟩
abbrev main_call2_v9 : Ref sig .tc := ⟨.hbm, 49, rfl⟩
abbrev main_call2_v10 : Ref sig .tc := ⟨.hbm, 50, rfl⟩
abbrev main_call2_v11 : Ref sig .tc := ⟨.hbm, 51, rfl⟩
abbrev main_call2_c_3 : Ref sig .tc := ⟨.hbm, 52, rfl⟩
abbrev main_call2_v12 : Ref sig .tc := ⟨.hbm, 53, rfl⟩
abbrev main_call2_v13 : Ref sig .tc := ⟨.hbm, 54, rfl⟩
abbrev main_call2_c_4 : Ref sig .tc := ⟨.hbm, 55, rfl⟩
abbrev main_call2_v14 : Ref sig .tc := ⟨.hbm, 56, rfl⟩
abbrev main_v8 : Ref sig .tc := ⟨.hbm, 57, rfl⟩
abbrev main_v9 : Ref sig .tc := ⟨.hbm, 58, rfl⟩
abbrev main_v10 : Ref sig .tc := ⟨.hbm, 59, rfl⟩
abbrev main_v11 : Ref sig .tc := ⟨.hbm, 60, rfl⟩
abbrev main_v12 : Ref sig .tc := ⟨.hbm, 61, rfl⟩
abbrev main_v13 : Ref sig .tc := ⟨.hbm, 62, rfl⟩
abbrev main_v14 : Ref sig .tc := ⟨.hbm, 63, rfl⟩
abbrev main_v15 : Ref sig .tc := ⟨.hbm, 64, rfl⟩
abbrev main_cst : Ref sig .tc := ⟨.hbm, 65, rfl⟩
abbrev main_v16 : Ref sig .tc := ⟨.hbm, 66, rfl⟩
abbrev main_cst_0 : Ref sig .tc := ⟨.hbm, 67, rfl⟩
abbrev main_v17 : Ref sig .tc := ⟨.hbm, 68, rfl⟩
abbrev main_v18 : Ref sig .tc := ⟨.hbm, 69, rfl⟩
abbrev main_v19 : Ref sig .tc := ⟨.hbm, 70, rfl⟩
abbrev main_v20 : Ref sig .tc := ⟨.hbm, 71, rfl⟩
abbrev main_v21 : Ref sig .tc := ⟨.hbm, 72, rfl⟩
abbrev main_v22 : Ref sig .tc := ⟨.hbm, 73, rfl⟩
abbrev main_cst_1 : Ref sig .tc := ⟨.hbm, 74, rfl⟩
abbrev main_v23 : Ref sig .tc := ⟨.hbm, 75, rfl⟩
abbrev main_v24 : Ref sig .tc := ⟨.hbm, 76, rfl⟩
abbrev main_v25 : Ref sig .tc := ⟨.hbm, 77, rfl⟩
abbrev main_v26 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x9 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x9 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S128x512x1024_S65536x1024 : S128x512x1024.ShapeCasts S65536x1024
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  bitsLt_bf16_f32 : FTy.bits .bf16 < FTy.bits .f32
  inb_S1024x9_S1024x9_0_0 : ∀ a, (![0, 0] : Fin 2 → Nat) a + S1024x9.size a ≤ S1024x9.size a
  h_S1024x9 : 0 < S1024x9.numel
  inb_S2048x9_S2048x9_0_0 : ∀ a, (![0, 0] : Fin 2 → Nat) a + S2048x9.size a ≤ S2048x9.size a
  h_S2048x9 : 0 < S2048x9.numel
  shapeCasts_S65536x9_S128x512x9 : S65536x9.ShapeCasts S128x512x9
  bcast_S_S128x512 : S_.BroadcastsInDim S128x512 (![] : Fin 0 → Fin S128x512.rank)
  bcast_S128x512_S128x512x1_0_1 : S128x512.BroadcastsInDim S128x512x1 (![0, 1] : Fin 2 → Fin S128x512x1.rank)
  bcast_S_S128x512x1 : S_.BroadcastsInDim S128x512x1 (![] : Fin 0 → Fin S128x512x1.rank)
  bcast_S1_S1x1x1_2 : S1.BroadcastsInDim S1x1x1 (![2] : Fin 1 → Fin S1x1x1.rank)
  bcast_S1x1x1_S128x512x1_0_1_2 : S1x1x1.BroadcastsInDim S128x512x1 (![0, 1, 2] : Fin 3 → Fin S128x512x1.rank)
  reducesTo_S128x512x1_S128x512_d2 : S128x512x1.ReducesTo [2] S128x512
  h_S_ : 0 < S_.numel
  bcast_S128x512_S128x512x9_0_1 : S128x512.BroadcastsInDim S128x512x9 (![0, 1] : Fin 2 → Fin S128x512x9.rank)
  bcast_S_S128x512x9 : S_.BroadcastsInDim S128x512x9 (![] : Fin 0 → Fin S128x512x9.rank)
  shapeCasts_S128x512_S128x512x1 : S128x512.ShapeCasts S128x512x1
  bcast_S128x512x1_S128x512x9_0_1_2 : S128x512x1.BroadcastsInDim S128x512x9 (![0, 1, 2] : Fin 3 → Fin S128x512x9.rank)
  bcast_S9_S1x1x9_2 : S9.BroadcastsInDim S1x1x9 (![2] : Fin 1 → Fin S1x1x9.rank)
  bcast_S1x1x9_S128x512x9_0_1_2 : S1x1x9.BroadcastsInDim S128x512x9 (![0, 1, 2] : Fin 3 → Fin S128x512x9.rank)
  reducesTo_S128x512x9_S128x512_d2 : S128x512x9.ReducesTo [2] S128x512
  dot_S2048x1024_S1024x9_S2048x9_1_0_0_1_n_n_wf : DotDims.WF S2048x1024 S1024x9 S2048x9 [1] [0] [0] [1] [] []
  gather_S128x512x9_S128x512x1_S128x512x9_2_1_0_0_1_2_119_wf : GatherDims.WF S128x512x9 S128x512x1 S128x512x9 [2] [1] [0] [1] [0] 2 ![1, 1, 9]
  gather_S128x512_S128x512x1_S128x512_n_1_0_0_1_2_11_wf : GatherDims.WF S128x512 S128x512x1 S128x512 [] [1] [0] [1] [0] 2 ![1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S65536x1024.size a
  hwx0_0 : ∀ i : grid0.Coords, EltTy.bits .f32 = 32 ∨ (Rect.block (s := S65536x1024) S2048x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x9.size a ≤ S1024x9.size a
  hwx0_1 : ∀ i : grid0.Coords, EltTy.bits .f32 = 32 ∨ (Rect.block (s := S1024x9) S1024x9.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x9.size a ≤ S65536x9.size a
  hwx0_2 : ∀ i : grid0.Coords, EltTy.bits .f32 = 32 ∨ (Rect.block (s := S65536x9) S2048x9.size (cc0_transform_2 i) (hinb0_2 i)).WholeWords (EltTy.packing .f32)

variable [Facts₀]

def dot_S2048x1024_S1024x9_S2048x9_1_0_0_1_n_n : DotDims S2048x1024 S1024x9 S2048x9 where
  lhsContracting := [1]
  rhsContracting := [0]
  lhsNonContracting := [0]
  rhsNonContracting := [1]
  lhsBatch := []
  rhsBatch := []
  wf := dot_S2048x1024_S1024x9_S2048x9_1_0_0_1_n_n_wf
def comparator_i32_i32_d1 : BitVec 32 × BitVec 32 → BitVec 32 × BitVec 32 → BitVec 1 :=
  fun l r =>
    let v2 := IntOp.cmpi .slt l.1 r.1
    v2
def gather_S128x512x9_S128x512x1_S128x512x9_2_1_0_0_1_2_119 : GatherDims S128x512x9 S128x512x1 S128x512x9 where
  offsetDims := [2]
  collapsedSliceDims := [1]
  operandBatchingDims := [0]
  startIndicesBatchingDims := [0]
  startIndexMap := [1]
  indexVectorDim := 2
  sliceSizes := ![1, 1, 9]
  wf := gather_S128x512x9_S128x512x1_S128x512x9_2_1_0_0_1_2_119_wf
def gather_S128x512_S128x512x1_S128x512_n_1_0_0_1_2_11 : GatherDims S128x512 S128x512x1 S128x512 where
  offsetDims := []
  collapsedSliceDims := [1]
  operandBatchingDims := [0]
  startIndicesBatchingDims := [0]
  startIndexMap := [1]
  indexVectorDim := 2
  sliceSizes := ![1, 1]
  wf := gather_S128x512_S128x512x1_S128x512_n_1_0_0_1_2_11_wf

abbrev win0_0 : Pipeline.Window sig grid0 :=
  Pipeline.Window.ofSpec (Memref.whole main_v0) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x9.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S2048x9.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S128x512x1024 : Shape := ⟨3, ![128, 512, 1024]⟩
abbrev S1024x9 : Shape := ⟨2, ![1024, 9]⟩
abbrev S9 : Shape := ⟨1, ![9]⟩
abbrev S128x512 : Shape := ⟨2, ![128, 512]⟩
abbrev S_ : Shape := ⟨0, ![]⟩
abbrev S128x512x1 : Shape := ⟨3, ![128, 512, 1]⟩
abbrev S1 : Shape := ⟨1, ![1]⟩
abbrev S1x1x1 : Shape := ⟨3, ![1, 1, 1]⟩
abbrev S128x512x9 : Shape := ⟨3, ![128, 512, 9]⟩
abbrev S1x1x9 : Shape := ⟨3, ![1, 1, 9]⟩

abbrev nBuf : Space → Nat
  | .hbm => 77
  | .vmem => 0
  | .smem => 0
  | _ => 0

abbrev bufTy : (tb : Table) → Fin (tcTables nBuf tb) → BufTy
  | .hbm, ⟨0, _⟩ => ⟨S128x512x1024, .f32⟩
  | .hbm, ⟨1, _⟩ => ⟨S1024x9, .f32⟩
  | .hbm, ⟨2, _⟩ => ⟨S9, .f32⟩
  | .hbm, ⟨3, _⟩ => ⟨S128x512, .i32⟩
  | .hbm, ⟨4, _⟩ => ⟨S_, .i32⟩
  | .hbm, ⟨5, _⟩ => ⟨S128x512, .i32⟩
  | .hbm, ⟨6, _⟩ => ⟨S128x512, .i32⟩
  | .hbm, ⟨7, _⟩ => ⟨S128x512, .i32⟩
  | .hbm, ⟨8, _⟩ => ⟨S128x512, .i32⟩
  | .hbm, ⟨9, _⟩ => ⟨S128x512, .i32⟩
  | .hbm, ⟨10, _⟩ => ⟨S128x512x1, .i32⟩
  | .hbm, ⟨11, _⟩ => ⟨S_, .i32⟩
  | .hbm, ⟨12, _⟩ => ⟨S128x512x1, .i32⟩
  | .hbm, ⟨13, _⟩ => ⟨S128x512x1, .i1⟩
  | .hbm, ⟨14, _⟩ => ⟨S_, .i32⟩
  | .hbm, ⟨15, _⟩ => ⟨S128x512x1, .i32⟩
  | .hbm, ⟨16, _⟩ => ⟨S128x512x1, .i32⟩
  | .hbm, ⟨17, _⟩ => ⟨S128x512x1, .i32⟩
  | .hbm, ⟨18, _⟩ => ⟨S1, .i32⟩
  | .hbm, ⟨19, _⟩ => ⟨S_, .i32⟩
  | .hbm, ⟨20, _⟩ => ⟨S128x512x1, .i32⟩
  | .hbm, ⟨21, _⟩ => ⟨S128x512x1, .i1⟩
  | .hbm, ⟨22, _⟩ => ⟨S1x1x1, .i32⟩
  | .hbm, ⟨23, _⟩ => ⟨S128x512x1, .i32⟩
  | .hbm, ⟨24, _⟩ => ⟨S128x512x1, .i1⟩
  | .hbm, ⟨25, _⟩ => ⟨S128x512x1, .i1⟩
  | .hbm, ⟨26, _⟩ => ⟨S_, .i1⟩
  | .hbm, ⟨27, _⟩ => ⟨S128x512, .i1⟩
  | .hbm, ⟨28, _⟩ => ⟨S128x512x1024, .f32⟩
  | .hbm, ⟨29, _⟩ => ⟨S128x512x1024, .i1⟩
  | .hbm, ⟨30, _⟩ => ⟨S_, .f32⟩
  | .hbm, ⟨31, _⟩ => ⟨S128x512x1024, .f32⟩
  | .hbm, ⟨32, _⟩ => ⟨S128x512x1024, .f32⟩
  | .hbm, ⟨33, _⟩ => ⟨S_, .i32⟩
  | .hbm, ⟨34, _⟩ => ⟨S128x512, .i32⟩
  | .hbm, ⟨35, _⟩ => ⟨S128x512, .i1⟩
  | .hbm, ⟨36, _⟩ => ⟨S_, .i32⟩
  | .hbm, ⟨37, _⟩ => ⟨S128x512, .i32⟩
  | .hbm, ⟨38, _⟩ => ⟨S128x512, .i32⟩
  | .hbm, ⟨39, _⟩ => ⟨S128x512, .i32⟩
  | .hbm, ⟨40, _⟩ => ⟨S128x512x1, .i32⟩
  | .hbm, ⟨41, _⟩ => ⟨S1, .i32⟩
  | .hbm, ⟨42, _⟩ => ⟨S_, .i32⟩
  | .hbm, ⟨43, _⟩ => ⟨S128x512x1, .i32⟩
  | .hbm, ⟨44, _⟩ => ⟨S128x512x1, .i1⟩
  | .hbm, ⟨45, _⟩ => ⟨S1x1x1, .i32⟩
  | .hbm, ⟨46, _⟩ => ⟨S128x512x1, .i32⟩
  | .hbm, ⟨47, _⟩ => ⟨S128x512x1, .i1⟩
  | .hbm, ⟨48, _⟩ => ⟨S128x512x1, .i1⟩
  | .hbm, ⟨49, _⟩ => ⟨S_, .i1⟩
  | .hbm, ⟨50, _⟩ => ⟨S128x512, .i1⟩
  | .hbm, ⟨51, _⟩ => ⟨S128x512, .i32⟩
  | .hbm, ⟨52, _⟩ => ⟨S_, .i32⟩
  | .hbm, ⟨53, _⟩ => ⟨S128x512, .i32⟩
  | .hbm, ⟨54, _⟩ => ⟨S128x512, .i32⟩
  | .hbm, ⟨55, _⟩ => ⟨S128x512, .f32⟩
  | .hbm, ⟨56, _⟩ => ⟨S128x512x1, .f32⟩
  | .hbm, ⟨57, _⟩ => ⟨S128x512x1024, .f32⟩
  | .hbm, ⟨58, _⟩ => ⟨S128x512x1024, .f32⟩
  | .hbm, ⟨59, _⟩ => ⟨S128x512x9, .f32⟩
  | .hbm, ⟨60, _⟩ => ⟨S1x1x9, .f32⟩
  | .hbm, ⟨61, _⟩ => ⟨S128x512x9, .f32⟩
  | .hbm, ⟨62, _⟩ => ⟨S128x512x9, .f32⟩
  | .hbm, ⟨63, _⟩ => ⟨S_, .f32⟩
  | .hbm, ⟨64, _⟩ => ⟨S128x512, .f32⟩
  | .hbm, ⟨65, _⟩ => ⟨S_, .f32⟩
  | .hbm, ⟨66, _⟩ => ⟨S128x512, .f32⟩
  | .hbm, ⟨67, _⟩ => ⟨S128x512, .f32⟩
  | .hbm, ⟨68, _⟩ => ⟨S128x512x1, .f32⟩
  | .hbm, ⟨69, _⟩ => ⟨S128x512x9, .f32⟩
  | .hbm, ⟨70, _⟩ => ⟨S128x512x9, .f32⟩
  | .hbm, ⟨71, _⟩ => ⟨S128x512x9, .f32⟩
  | .hbm, ⟨72, _⟩ => ⟨S_, .f32⟩
  | .hbm, ⟨73, _⟩ => ⟨S128x512, .f32⟩
  | .hbm, ⟨74, _⟩ => ⟨S128x512x1, .f32⟩
  | .hbm, ⟨75, _⟩ => ⟨S128x512x9, .f32⟩
  | .hbm, ⟨76, _⟩ => ⟨S128x512x9, .f32⟩
  | _, _ => ⟨S128x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_v1_0 : Ref sig .tc := ⟨.hbm, 8, rfl⟩
abbrev main_v2 : Ref sig .tc := ⟨.hbm, 9, rfl⟩
abbrev main_v3 : Ref sig .tc := ⟨.hbm, 10, rfl⟩
abbrev main_call1_c : Ref sig .tc := ⟨.hbm, 11, rfl⟩
abbrev main_call1_v0 : Ref sig .tc := ⟨.hbm, 12, rfl⟩
abbrev main_call1_v1 : Ref sig .tc := ⟨.hbm, 13, rfl⟩
abbrev main_call1_c_0 : Ref sig .tc := ⟨.hbm, 14, rfl⟩
abbrev main_call1_v2 : Ref sig .tc := ⟨.hbm, 15, rfl⟩
abbrev main_call1_v3 : Ref sig .tc := ⟨.hbm, 16, rfl⟩
abbrev main_call1_v4 : Ref sig .tc := ⟨.hbm, 17, rfl⟩
abbrev main_call1_c_1 : Ref sig .tc := ⟨.hbm, 18, rfl⟩
abbrev main_call1_c_2 : Ref sig .tc := ⟨.hbm, 19, rfl⟩
abbrev main_call1_v5 : Ref sig .tc := ⟨.hbm, 20, rfl⟩
abbrev main_call1_v6 : Ref sig .tc := ⟨.hbm, 21, rfl⟩
abbrev main_call1_v7 : Ref sig .tc := ⟨.hbm, 22, rfl⟩
abbrev main_call1_v8 : Ref sig .tc := ⟨.hbm, 23, rfl⟩
abbrev main_call1_v9 : Ref sig .tc := ⟨.hbm, 24, rfl⟩
abbrev main_call1_v10 : Ref sig .tc := ⟨.hbm, 25, rfl⟩
abbrev main_call1_c_3 : Ref sig .tc := ⟨.hbm, 26, rfl⟩
abbrev main_call1_v11 : Ref sig .tc := ⟨.hbm, 27, rfl⟩
abbrev main_call1_v12 : Ref sig .tc := ⟨.hbm, 28, rfl⟩
abbrev main_call1_v13 : Ref sig .tc := ⟨.hbm, 29, rfl⟩
abbrev main_call1_cst : Ref sig .tc := ⟨.hbm, 30, rfl⟩
abbrev main_call1_v14 : Ref sig .tc := ⟨.hbm, 31, rfl⟩
abbrev main_v4 : Ref sig .tc := ⟨.hbm, 32, rfl⟩
abbrev main_call2_c : Ref sig .tc := ⟨.hbm, 33, rfl⟩
abbrev main_call2_v0 : Ref sig .tc := ⟨.hbm, 34, rfl⟩
abbrev main_call2_v1 : Ref sig .tc := ⟨.hbm, 35, rfl⟩
abbrev main_call2_c_0 : Ref sig .tc := ⟨.hbm, 36, rfl⟩
abbrev main_call2_v2 : Ref sig .tc := ⟨.hbm, 37, rfl⟩
abbrev main_call2_v3 : Ref sig .tc := ⟨.hbm, 38, rfl⟩
abbrev main_call2_v4 : Ref sig .tc := ⟨.hbm, 39, rfl⟩
abbrev main_call2_v5 : Ref sig .tc := ⟨.hbm, 40, rfl⟩
abbrev main_call2_c_1 : Ref sig .tc := ⟨.hbm, 41, rfl⟩
abbrev main_call2_c_2 : Ref sig .tc := ⟨.hbm, 42, rfl⟩
abbrev main_call2_v6 : Ref sig .tc := ⟨.hbm, 43, rfl⟩
abbrev main_call2_v7 : Ref sig .tc := ⟨.hbm, 44, rfl⟩
abbrev main_call2_v8 : Ref sig .tc := ⟨.hbm, 45, rfl⟩
abbrev main_call2_v9 : Ref sig .tc := ⟨.hbm, 46, rfl⟩
abbrev main_call2_v10 : Ref sig .tc := ⟨.hbm, 47, rfl⟩
abbrev main_call2_v11 : Ref sig .tc := ⟨.hbm, 48, rfl⟩
abbrev main_call2_c_3 : Ref sig .tc := ⟨.hbm, 49, rfl⟩
abbrev main_call2_v12 : Ref sig .tc := ⟨.hbm, 50, rfl⟩
abbrev main_call2_v13 : Ref sig .tc := ⟨.hbm, 51, rfl⟩
abbrev main_call2_c_4 : Ref sig .tc := ⟨.hbm, 52, rfl⟩
abbrev main_call2_v14 : Ref sig .tc := ⟨.hbm, 53, rfl⟩
abbrev main_v5 : Ref sig .tc := ⟨.hbm, 54, rfl⟩
abbrev main_v6 : Ref sig .tc := ⟨.hbm, 55, rfl⟩
abbrev main_v7 : Ref sig .tc := ⟨.hbm, 56, rfl⟩
abbrev main_v8 : Ref sig .tc := ⟨.hbm, 57, rfl⟩
abbrev main_v9 : Ref sig .tc := ⟨.hbm, 58, rfl⟩
abbrev main_v10 : Ref sig .tc := ⟨.hbm, 59, rfl⟩
abbrev main_v11 : Ref sig .tc := ⟨.hbm, 60, rfl⟩
abbrev main_v12 : Ref sig .tc := ⟨.hbm, 61, rfl⟩
abbrev main_v13 : Ref sig .tc := ⟨.hbm, 62, rfl⟩
abbrev main_cst : Ref sig .tc := ⟨.hbm, 63, rfl⟩
abbrev main_v14 : Ref sig .tc := ⟨.hbm, 64, rfl⟩
abbrev main_cst_0 : Ref sig .tc := ⟨.hbm, 65, rfl⟩
abbrev main_v15 : Ref sig .tc := ⟨.hbm, 66, rfl⟩
abbrev main_v16 : Ref sig .tc := ⟨.hbm, 67, rfl⟩
abbrev main_v17 : Ref sig .tc := ⟨.hbm, 68, rfl⟩
abbrev main_v18 : Ref sig .tc := ⟨.hbm, 69, rfl⟩
abbrev main_v19 : Ref sig .tc := ⟨.hbm, 70, rfl⟩
abbrev main_v20 : Ref sig .tc := ⟨.hbm, 71, rfl⟩
abbrev main_cst_1 : Ref sig .tc := ⟨.hbm, 72, rfl⟩
abbrev main_v21 : Ref sig .tc := ⟨.hbm, 73, rfl⟩
abbrev main_v22 : Ref sig .tc := ⟨.hbm, 74, rfl⟩
abbrev main_v23 : Ref sig .tc := ⟨.hbm, 75, rfl⟩
abbrev main_v24 : Ref sig .tc := ⟨.hbm, 76, rfl⟩

abbrev nD : Nat := 1
abbrev τ : Topo := Topo.v7x

variable {F : FTy → Type} [FloatOps F]

class Facts₀ : Prop where
  bcast_S_S128x512 : S_.BroadcastsInDim S128x512 (![] : Fin 0 → Fin S128x512.rank)
  bcast_S128x512_S128x512x1_0_1 : S128x512.BroadcastsInDim S128x512x1 (![0, 1] : Fin 2 → Fin S128x512x1.rank)
  bcast_S_S128x512x1 : S_.BroadcastsInDim S128x512x1 (![] : Fin 0 → Fin S128x512x1.rank)
  bcast_S1_S1x1x1_2 : S1.BroadcastsInDim S1x1x1 (![2] : Fin 1 → Fin S1x1x1.rank)
  bcast_S1x1x1_S128x512x1_0_1_2 : S1x1x1.BroadcastsInDim S128x512x1 (![0, 1, 2] : Fin 3 → Fin S128x512x1.rank)
  reducesTo_S128x512x1_S128x512_d2 : S128x512x1.ReducesTo [2] S128x512
  h_S_ : 0 < S_.numel
  bcast_S128x512_S128x512x1024_0_1 : S128x512.BroadcastsInDim S128x512x1024 (![0, 1] : Fin 2 → Fin S128x512x1024.rank)
  bcast_S_S128x512x1024 : S_.BroadcastsInDim S128x512x1024 (![] : Fin 0 → Fin S128x512x1024.rank)
  shapeCasts_S128x512_S128x512x1 : S128x512.ShapeCasts S128x512x1
  bcast_S128x512x1_S128x512x1024_0_1_2 : S128x512x1.BroadcastsInDim S128x512x1024 (![0, 1, 2] : Fin 3 → Fin S128x512x1024.rank)
  bcast_S9_S1x1x9_2 : S9.BroadcastsInDim S1x1x9 (![2] : Fin 1 → Fin S1x1x9.rank)
  bcast_S1x1x9_S128x512x9_0_1_2 : S1x1x9.BroadcastsInDim S128x512x9 (![0, 1, 2] : Fin 3 → Fin S128x512x9.rank)
  reducesTo_S128x512x9_S128x512_d2 : S128x512x9.ReducesTo [2] S128x512
  bcast_S128x512x1_S128x512x9_0_1_2 : S128x512x1.BroadcastsInDim S128x512x9 (![0, 1, 2] : Fin 3 → Fin S128x512x9.rank)
  gather_S128x512x1024_S128x512x1_S128x512x1024_2_1_0_0_1_2_111024_wf : GatherDims.WF S128x512x1024 S128x512x1 S128x512x1024 [2] [1] [0] [1] [0] 2 ![1, 1, 1024]
  gather_S128x512_S128x512x1_S128x512_n_1_0_0_1_2_11_wf : GatherDims.WF S128x512 S128x512x1 S128x512 [] [1] [0] [1] [0] 2 ![1, 1]
  dot_S128x512x1024_S1024x9_S128x512x9_2_0_01_1_n_n_wf : DotDims.WF S128x512x1024 S1024x9 S128x512x9 [2] [0] [0, 1] [1] [] []

variable [Facts₀]

def comparator_i32_i32_d1 : BitVec 32 × BitVec 32 → BitVec 32 × BitVec 32 → BitVec 1 :=
  fun l r =>
    let v2 := IntOp.cmpi .slt l.1 r.1
    v2
def gather_S128x512x1024_S128x512x1_S128x512x1024_2_1_0_0_1_2_111024 : GatherDims S128x512x1024 S128x512x1 S128x512x1024 where
  offsetDims := [2]
  collapsedSliceDims := [1]
  operandBatchingDims := [0]
  startIndicesBatchingDims := [0]
  startIndexMap := [1]
  indexVectorDim := 2
  sliceSizes := ![1, 1, 1024]
  wf := gather_S128x512x1024_S128x512x1_S128x512x1024_2_1_0_0_1_2_111024_wf
def gather_S128x512_S128x512x1_S128x512_n_1_0_0_1_2_11 : GatherDims S128x512 S128x512x1 S128x512 where
  offsetDims := []
  collapsedSliceDims := [1]
  operandBatchingDims := [0]
  startIndicesBatchingDims := [0]
  startIndexMap := [1]
  indexVectorDim := 2
  sliceSizes := ![1, 1]
  wf := gather_S128x512_S128x512x1_S128x512_n_1_0_0_1_2_11_wf
def dot_S128x512x1024_S1024x9_S128x512x9_2_0_01_1_n_n : DotDims S128x512x1024 S1024x9 S128x512x9 where
  lhsContracting := [2]
  rhsContracting := [0]
  lhsNonContracting := [0, 1]
  rhsNonContracting := [1]
  lhsBatch := []
  rhsBatch := []
  wf := dot_S128x512x1024_S1024x9_S128x512x9_2_0_01_1_n_n_wf

class Facts : Prop extends Facts₀ where

variable [Facts]
-- ==== Proof.KFrameDefs.lean ====
/-
  The matmul region of `Kernel` and the host lines around it, as definitions: the buffer contents the region finds
  (`V0`, `V`: the launch memory after the one reshape that precedes the region), the lines that follow the region
  (`tailOps`: six stretches, 73 operations), each window's block at a grid point (`iblk`), what the body leaves in the
  output window's staging buffer (`out0_2`: one whole-buffer store of the bf16 product of the two input blocks), and
  the proof data of the pipeline (`dats`). The frame run and the value proofs are both stated over these.
-/
import proofs.«148638_j44306882625826_1_alg».proof.Proof.Gen.Kernel.Launch
import proofs.«148638_j44306882625826_1_alg».proof.Proof.Gen.Kernel.Skeleton
import proofs.«148638_j44306882625826_1_alg».proof.Proof.Gen.Kernel.Points
import Idealize.ShloMosaic.Lib.Pipeline.FrameBody
import Idealize.ShloMosaic.Lib.Pipeline.FrameSuffix

set_option maxRecDepth 16384

noncomputable section

namespace Cert.Kernel.Fr

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-- Core `c`'s TensorCore buffer contents when the region is entered, as a valuation: the launch memory after the
    reshape of the activations to 65536 rows. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- The host lines after the region, stretch by stretch: the reshape of the product and `1 - valid`, the stable sort,
    the two gathers along the token axis, and the masked, biased softmax. -/
abbrev tailOps : List (List (HloOp τ sig (Elt F))) :=
  [hostOps1, hostOps1_1, hostOps1_2, hostOps1_3, hostOps1_4, hostOps1_5]

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The body's three accesses: each a whole staging buffer. -/
abbrev rX : Rect S2048x1024 := Rect.unit (s := S2048x1024) ![0, 0] S2048x1024.size inb_S2048x1024_S2048x1024_0_0
abbrev rW : Rect S1024x9 := Rect.unit (s := S1024x9) ![0, 0] S1024x9.size inb_S1024x9_S1024x9_0_0
abbrev rO : Rect S2048x9 := Rect.unit (s := S2048x9) ![0, 0] S2048x9.size inb_S2048x9_S2048x9_0_0

/-- The output window's staging buffer after the body, from the two input blocks: its one store, of the product. -/
def out0_2 (x0 : Vec F S2048x1024 .f32) (x1 : Vec F S1024x9 .f32) : Vec F S2048x9 .f32 :=
  View.canon [⟨rO, k0_pay1 (View.ld x0 rX) (View.ld x1 rW)⟩]

/-- The one store covers the buffer. -/
theorem cover0_2 (p0 : Vec F S2048x9 .f32) (y : S2048x9.Idx) :
    ∃ pc ∈ ([⟨rO, p0⟩] : List (View.Piece (Elt F) S2048x9 .f32)), y ∈ pc.1.set :=
  View.cover_of_tiled [⟨rO, p0⟩] S2048x9.size (by rfl) y

/-- The proof data of the pipeline on core `c`: the arrays as the region finds them; after the body at point `t` each
    input's buffer at its block and the output's at the product of the two blocks; the invariant the scoped rest and
    the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (iblk m c 0 t) (iblk m c 1 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_2 (iblk m c 0 t) (iblk m c 1 t) := by dsimp only [dats]

end Cert.Kernel.Fr

end
-- ==== Proof.KFrame.lean ====
/-
  The frame run of `Kernel`: on every core, every weakly fair execution of `main` terminates without fault and the four
  argument arrays end as launched. `main` is one reshape, the matmul region, and 73 host operations in six stretches.
  The region is run by the pipeline library's frame theorem for a region followed by host lines: the lines after it
  touch only unscoped TensorCore buffers, allocate nothing and write none of the region's three arrays; the body, run
  on whole staging buffers, leaves the two input blocks in place and the product in the output's buffer. The argument
  arrays are then read off the final memory: `main_arg1` is the second window's array, an input the region leaves as
  found; `main_arg0`, `main_arg2` and `main_arg3` are written by no operation and staged by no window.
-/
import proofs.«148638_j44306882625826_1_alg».proof.Proof.KFrameDefs
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## `main` around the region -/

/-- No host operation allocates a buffer: each writes a buffer the signature already names. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor

set_option maxHeartbeats 2000000 in
/-- `main` is the reshape, then the region, then the six stretches: run from the launch memory it reaches the region
    with the buffers at `V`, and what remains after the region is the six stretches in order. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1, StableHlo.seq hostOps1_1, StableHlo.seq hostOps1_2, StableHlo.seq hostOps1_3, StableHlo.seq hostOps1_4, StableHlo.seq hostOps1_5]) :=
  Pipeline.hmain_around cfgs 0 defs₀ 𝒱₀ m main [hostOps0] [hostOps1, hostOps1_1, hostOps1_2, hostOps1_3, hostOps1_4, hostOps1_5] (by simp only [List.Forall]; exact hostOps0_sub)
    (by simp only [List.Forall]; exact hostOps0_fresh) main_chain

/-- Every operation after the region touches unscoped TensorCore buffers only; nothing being prefetched, each such
    buffer is one of the region's arrays or bypasses the region. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [tailOps, List.mem_cons, List.mem_nil_iff, or_false] at hops
  rcases hops with rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)

/-- They allocate nothing. -/
theorem sfx_fresh : ∀ ops ∈ (tailOps : List (List (HloOp τ sig (Elt F)))), ∀ op ∈ ops, op.fresh = ∅ := by
  intro ops hops op hop
  simp only [tailOps, List.mem_cons, List.mem_nil_iff, or_false] at hops
  rcases hops with rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop

set_option maxHeartbeats 500000 in
/-- And none writes an array of the region: each writes only its own result buffer, which is none of `main_v0`,
    `main_arg1`, `main_v1`. -/
theorem sfx_keeps : ∀ ops ∈ (tailOps : List (List (HloOp τ sig (Elt F)))), ∀ op ∈ ops,
    ∀ w, Proc.devRef .tc (Pipeline.arrRef spec0 w) ∉ op.writes := by
  intro ops hops op hop
  simp only [tailOps, List.mem_cons, List.mem_nil_iff, or_false] at hops
  rcases hops with rfl | rfl | rfl | rfl | rfl | rfl
  · simp only [hostOps1, List.mem_cons, List.mem_nil_iff, or_false] at hop
    rcases hop with rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
  · simp only [hostOps1_1, List.mem_cons, List.mem_nil_iff, or_false] at hop
    rcases hop with rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
  · simp only [hostOps1_2, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
  · simp only [hostOps1_3, List.mem_cons, List.mem_nil_iff, or_false] at hop
    rcases hop with rfl | rfl | rfl | rfl | rfl | rfl | rfl | rfl | rfl | rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
  · simp only [hostOps1_4, List.mem_cons, List.mem_nil_iff, or_false] at hop
    rcases hop with rfl | rfl | rfl | rfl | rfl | rfl | rfl | rfl | rfl | rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
  · simp only [hostOps1_5, List.mem_cons, List.mem_nil_iff, or_false] at hop
    rcases hop with rfl | rfl | rfl | rfl | rfl | rfl | rfl | rfl | rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- The reshape before the region writes only its own result, so the region finds `main_arg0` as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- The reshape before the region writes only its own result, so the region finds `main_arg1` as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- The reshape before the region writes only its own result, so the region finds `main_arg2` as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- The reshape before the region writes only its own result, so the region finds `main_arg3` as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

set_option maxHeartbeats 400000 in
/-- None of the 73 operations after the region writes `main_arg0`, and it is no window's array: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) tailOps c main_arg0 = m ((c : Thread nD τ).loc main_arg0) := by
  unfold Pipeline.afterTail₀
  rw [StableHlo.after_of_forall_not_mem (b := Proc.devRef .tc main_arg0) _ _ (List.forall_iff_forall_mem.mp (by
      simp only [tailOps, hostOps1, hostOps1_1, hostOps1_2, hostOps1_3, hostOps1_4, hostOps1_5, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

set_option maxHeartbeats 400000 in
/-- None of the 73 operations after the region writes `main_arg2`, and it is no window's array: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) tailOps c main_arg2 = m ((c : Thread nD τ).loc main_arg2) := by
  unfold Pipeline.afterTail₀
  rw [StableHlo.after_of_forall_not_mem (b := Proc.devRef .tc main_arg2) _ _ (List.forall_iff_forall_mem.mp (by
      simp only [tailOps, hostOps1, hostOps1_1, hostOps1_2, hostOps1_3, hostOps1_4, hostOps1_5, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

set_option maxHeartbeats 400000 in
/-- None of the 73 operations after the region writes `main_arg3`, and it is no window's array: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) tailOps c main_arg3 = m ((c : Thread nD τ).loc main_arg3) := by
  unfold Pipeline.afterTail₀
  rw [StableHlo.after_of_forall_not_mem (b := Proc.devRef .tc main_arg3) _ _ (List.forall_iff_forall_mem.mp (by
      simp only [tailOps, hostOps1, hostOps1_1, hostOps1_2, hostOps1_3, hostOps1_4, hostOps1_5, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-! ## The input windows' staging buffers -/

/-- An input window's current staging buffer holds its block at every point, fetched there or not (where it is not
    fetched its block index has not moved), for any proof data whose array is `V`'s and whose body leaves the block
    in place. Window 0 is fetched at every point, window 1 at the first point only. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The frame claim's post from the frame run's -/

/-- From a run to the library's frame post, for any proof data whose arrays are the region-entry contents: `main_arg1`
    is an input window's array, which the region leaves at its entry contents; `main_arg0`, `main_arg2` and `main_arg3`
    are staged by no window, so the post reads them as the later lines leave them — as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(((h c).2 main_arg0 (Pipeline.mem_restRefs_of main_arg0 (by decide) (by decide))).trans (W_main_arg0 m dats c)),
      ((h c).1 1).trans (((dats 0 c).arrAt_in 1 rfl _).trans ((hA c 1).trans (V_main_arg1 m c))),
      (((h c).2 main_arg2 (Pipeline.mem_restRefs_of main_arg2 (by decide) (by decide))).trans (W_main_arg2 m dats c)),
      (((h c).2 main_arg3 (Pipeline.mem_restRefs_of main_arg3 (by decide) (by decide))).trans (W_main_arg3 m dats c))⟩) h

/-! ## The body's triple -/

set_option maxHeartbeats 1000000 in
/-- The body on whole staging buffers, the two inputs' at contents `x0`, `x1` and the output's at anything, runs to a
    state holding the inputs' as they were and the output's at the product `out0_2 x0 x1`: it loads the three buffers
    (the output's load is unused) and stores the product over the whole output buffer. -/
theorem sound_kernel (c : Dev nD) (E : Set ℕ) (i : grid0.Coords) (arg1 : Memref sig .tc .vmem S2048x1024 .f32) (harg1 : arg1.IsWhole) (arg2 : Memref sig .tc .vmem S1024x9 .f32) (harg2 : arg2.IsWhole) (arg3 : Memref sig .tc .vmem S2048x9 .f32) (harg3 : arg3.IsWhole)
    (x0 : Vec F S2048x1024 .f32) (x1 : Vec F S1024x9 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The body obligation, at a generic point -/

/-- What the body is called with at point `t`: the invariant, nothing owed, and the three current staging buffers. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- What it returns: the same, the buffers at what the proof data say the body leaves. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' buffers hold their blocks, so the body's triple applies; the invariant and the
    owed count pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
set_option maxHeartbeats 2000000 in
/-- At the compiled mesh, for any values, from any memory with zero counters: every weakly fair execution of `main` on
    the TensorCores terminates, and every final state has each array of the region at what the library computes from
    the proof data and every other unscoped buffer as the lines after the region leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- info: 'Cert.Kernel.Fr.run_main' depends on axioms: [propext, Classical.choice, Quot.sound] -/
#guard_msgs in #print axioms run_main

/-- The frame claim's statement at any float model: `main` runs, and the four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.Kernel.Fr

end
-- ==== Proof.KIFrameDefs.lean ====
/-
  The matmul region of `KernelIdeal` and the host lines around it, as definitions: the buffer contents the region finds
  (`V0`, `V`: the launch memory after the one reshape that precedes the region), the lines that follow the region
  (`tailOps`: six stretches, 73 operations), each window's block at a grid point (`iblk`), what the body leaves in the
  output window's staging buffer (`out0_2`: one whole-buffer store of the bf16 product of the two input blocks), and
  the proof data of the pipeline (`dats`). The frame run and the value proofs are both stated over these.
-/
import proofs.«148638_j44306882625826_1_alg».proof.Proof.Gen.KernelIdeal.Launch
import proofs.«148638_j44306882625826_1_alg».proof.Proof.Gen.KernelIdeal.Skeleton
import proofs.«148638_j44306882625826_1_alg».proof.Proof.Gen.KernelIdeal.Points
import Idealize.ShloMosaic.Lib.Pipeline.FrameBody
import Idealize.ShloMosaic.Lib.Pipeline.FrameSuffix

set_option maxRecDepth 16384

noncomputable section

namespace Cert.KernelIdeal.Fr

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-- Core `c`'s TensorCore buffer contents when the region is entered, as a valuation: the launch memory after the
    reshape of the activations to 65536 rows. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- The host lines after the region, stretch by stretch: the reshape of the product and `1 - valid`, the stable sort,
    the two gathers along the token axis, and the masked, biased softmax. -/
abbrev tailOps : List (List (HloOp τ sig (Elt F))) :=
  [hostOps1, hostOps1_1, hostOps1_2, hostOps1_3, hostOps1_4, hostOps1_5]

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The body's three accesses: each a whole staging buffer. -/
abbrev rX : Rect S2048x1024 := Rect.unit (s := S2048x1024) ![0, 0] S2048x1024.size inb_S2048x1024_S2048x1024_0_0
abbrev rW : Rect S1024x9 := Rect.unit (s := S1024x9) ![0, 0] S1024x9.size inb_S1024x9_S1024x9_0_0
abbrev rO : Rect S2048x9 := Rect.unit (s := S2048x9) ![0, 0] S2048x9.size inb_S2048x9_S2048x9_0_0

/-- The output window's staging buffer after the body, from the two input blocks: its one store, of the product. -/
def out0_2 (x0 : Vec F S2048x1024 .f32) (x1 : Vec F S1024x9 .f32) : Vec F S2048x9 .f32 :=
  View.canon [⟨rO, k0_pay1 (View.ld x0 rX) (View.ld x1 rW)⟩]

/-- The one store covers the buffer. -/
theorem cover0_2 (p0 : Vec F S2048x9 .f32) (y : S2048x9.Idx) :
    ∃ pc ∈ ([⟨rO, p0⟩] : List (View.Piece (Elt F) S2048x9 .f32)), y ∈ pc.1.set :=
  View.cover_of_tiled [⟨rO, p0⟩] S2048x9.size (by rfl) y

/-- The proof data of the pipeline on core `c`: the arrays as the region finds them; after the body at point `t` each
    input's buffer at its block and the output's at the product of the two blocks; the invariant the scoped rest and
    the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (iblk m c 0 t) (iblk m c 1 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_2 (iblk m c 0 t) (iblk m c 1 t) := by dsimp only [dats]

end Cert.KernelIdeal.Fr

end
-- ==== Proof.KIFrame.lean ====
/-
  The frame run of `KernelIdeal`: on every core, every weakly fair execution of `main` terminates without fault and the four
  argument arrays end as launched. `main` is one reshape, the matmul region, and 73 host operations in six stretches.
  The region is run by the pipeline library's frame theorem for a region followed by host lines: the lines after it
  touch only unscoped TensorCore buffers, allocate nothing and write none of the region's three arrays; the body, run
  on whole staging buffers, leaves the two input blocks in place and the product in the output's buffer. The argument
  arrays are then read off the final memory: `main_arg1` is the second window's array, an input the region leaves as
  found; `main_arg0`, `main_arg2` and `main_arg3` are written by no operation and staged by no window.
-/
import proofs.«148638_j44306882625826_1_alg».proof.Proof.KIFrameDefs
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## `main` around the region -/

/-- No host operation allocates a buffer: each writes a buffer the signature already names. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor

set_option maxHeartbeats 2000000 in
/-- `main` is the reshape, then the region, then the six stretches: run from the launch memory it reaches the region
    with the buffers at `V`, and what remains after the region is the six stretches in order. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1, StableHlo.seq hostOps1_1, StableHlo.seq hostOps1_2, StableHlo.seq hostOps1_3, StableHlo.seq hostOps1_4, StableHlo.seq hostOps1_5]) :=
  Pipeline.hmain_around cfgs 0 defs₀ 𝒱₀ m main [hostOps0] [hostOps1, hostOps1_1, hostOps1_2, hostOps1_3, hostOps1_4, hostOps1_5] (by simp only [List.Forall]; exact hostOps0_sub)
    (by simp only [List.Forall]; exact hostOps0_fresh) main_chain

/-- Every operation after the region touches unscoped TensorCore buffers only; nothing being prefetched, each such
    buffer is one of the region's arrays or bypasses the region. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [tailOps, List.mem_cons, List.mem_nil_iff, or_false] at hops
  rcases hops with rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)

/-- They allocate nothing. -/
theorem sfx_fresh : ∀ ops ∈ (tailOps : List (List (HloOp τ sig (Elt F)))), ∀ op ∈ ops, op.fresh = ∅ := by
  intro ops hops op hop
  simp only [tailOps, List.mem_cons, List.mem_nil_iff, or_false] at hops
  rcases hops with rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop

set_option maxHeartbeats 500000 in
/-- And none writes an array of the region: each writes only its own result buffer, which is none of `main_v0`,
    `main_arg1`, `main_v1`. -/
theorem sfx_keeps : ∀ ops ∈ (tailOps : List (List (HloOp τ sig (Elt F)))), ∀ op ∈ ops,
    ∀ w, Proc.devRef .tc (Pipeline.arrRef spec0 w) ∉ op.writes := by
  intro ops hops op hop
  simp only [tailOps, List.mem_cons, List.mem_nil_iff, or_false] at hops
  rcases hops with rfl | rfl | rfl | rfl | rfl | rfl
  · simp only [hostOps1, List.mem_cons, List.mem_nil_iff, or_false] at hop
    rcases hop with rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
  · simp only [hostOps1_1, List.mem_cons, List.mem_nil_iff, or_false] at hop
    rcases hop with rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
  · simp only [hostOps1_2, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
  · simp only [hostOps1_3, List.mem_cons, List.mem_nil_iff, or_false] at hop
    rcases hop with rfl | rfl | rfl | rfl | rfl | rfl | rfl | rfl | rfl | rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
  · simp only [hostOps1_4, List.mem_cons, List.mem_nil_iff, or_false] at hop
    rcases hop with rfl | rfl | rfl | rfl | rfl | rfl | rfl | rfl | rfl | rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
  · simp only [hostOps1_5, List.mem_cons, List.mem_nil_iff, or_false] at hop
    rcases hop with rfl | rfl | rfl | rfl | rfl | rfl | rfl | rfl | rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- The reshape before the region writes only its own result, so the region finds `main_arg0` as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- The reshape before the region writes only its own result, so the region finds `main_arg1` as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- The reshape before the region writes only its own result, so the region finds `main_arg2` as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- The reshape before the region writes only its own result, so the region finds `main_arg3` as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

set_option maxHeartbeats 400000 in
/-- None of the 73 operations after the region writes `main_arg0`, and it is no window's array: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) tailOps c main_arg0 = m ((c : Thread nD τ).loc main_arg0) := by
  unfold Pipeline.afterTail₀
  rw [StableHlo.after_of_forall_not_mem (b := Proc.devRef .tc main_arg0) _ _ (List.forall_iff_forall_mem.mp (by
      simp only [tailOps, hostOps1, hostOps1_1, hostOps1_2, hostOps1_3, hostOps1_4, hostOps1_5, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

set_option maxHeartbeats 400000 in
/-- None of the 73 operations after the region writes `main_arg2`, and it is no window's array: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) tailOps c main_arg2 = m ((c : Thread nD τ).loc main_arg2) := by
  unfold Pipeline.afterTail₀
  rw [StableHlo.after_of_forall_not_mem (b := Proc.devRef .tc main_arg2) _ _ (List.forall_iff_forall_mem.mp (by
      simp only [tailOps, hostOps1, hostOps1_1, hostOps1_2, hostOps1_3, hostOps1_4, hostOps1_5, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

set_option maxHeartbeats 400000 in
/-- None of the 73 operations after the region writes `main_arg3`, and it is no window's array: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) tailOps c main_arg3 = m ((c : Thread nD τ).loc main_arg3) := by
  unfold Pipeline.afterTail₀
  rw [StableHlo.after_of_forall_not_mem (b := Proc.devRef .tc main_arg3) _ _ (List.forall_iff_forall_mem.mp (by
      simp only [tailOps, hostOps1, hostOps1_1, hostOps1_2, hostOps1_3, hostOps1_4, hostOps1_5, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-! ## The input windows' staging buffers -/

/-- An input window's current staging buffer holds its block at every point, fetched there or not (where it is not
    fetched its block index has not moved), for any proof data whose array is `V`'s and whose body leaves the block
    in place. Window 0 is fetched at every point, window 1 at the first point only. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The frame claim's post from the frame run's -/

/-- From a run to the library's frame post, for any proof data whose arrays are the region-entry contents: `main_arg1`
    is an input window's array, which the region leaves at its entry contents; `main_arg0`, `main_arg2` and `main_arg3`
    are staged by no window, so the post reads them as the later lines leave them — as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(((h c).2 main_arg0 (Pipeline.mem_restRefs_of main_arg0 (by decide) (by decide))).trans (W_main_arg0 m dats c)),
      ((h c).1 1).trans (((dats 0 c).arrAt_in 1 rfl _).trans ((hA c 1).trans (V_main_arg1 m c))),
      (((h c).2 main_arg2 (Pipeline.mem_restRefs_of main_arg2 (by decide) (by decide))).trans (W_main_arg2 m dats c)),
      (((h c).2 main_arg3 (Pipeline.mem_restRefs_of main_arg3 (by decide) (by decide))).trans (W_main_arg3 m dats c))⟩) h

/-! ## The body's triple -/

set_option maxHeartbeats 1000000 in
/-- The body on whole staging buffers, the two inputs' at contents `x0`, `x1` and the output's at anything, runs to a
    state holding the inputs' as they were and the output's at the product `out0_2 x0 x1`: it loads the three buffers
    (the output's load is unused) and stores the product over the whole output buffer. -/
theorem sound_kernel (c : Dev nD) (E : Set ℕ) (i : grid0.Coords) (arg1 : Memref sig .tc .vmem S2048x1024 .f32) (harg1 : arg1.IsWhole) (arg2 : Memref sig .tc .vmem S1024x9 .f32) (harg2 : arg2.IsWhole) (arg3 : Memref sig .tc .vmem S2048x9 .f32) (harg3 : arg3.IsWhole)
    (x0 : Vec F S2048x1024 .f32) (x1 : Vec F S1024x9 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The body obligation, at a generic point -/

/-- What the body is called with at point `t`: the invariant, nothing owed, and the three current staging buffers. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- What it returns: the same, the buffers at what the proof data say the body leaves. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' buffers hold their blocks, so the body's triple applies; the invariant and the
    owed count pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
set_option maxHeartbeats 2000000 in
/-- At the compiled mesh, for any values, from any memory with zero counters: every weakly fair execution of `main` on
    the TensorCores terminates, and every final state has each array of the region at what the library computes from
    the proof data and every other unscoped buffer as the lines after the region leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- info: 'Cert.KernelIdeal.Fr.run_main' depends on axioms: [propext, Classical.choice, Quot.sound] -/
#guard_msgs in #print axioms run_main

/-- The frame claim's statement at any float model: `main` runs, and the four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.Fr

end
-- ==== Proof.LibPlainDot.lean ====
/-
  A plain matrix product read at an index, over the extended reals.

  For the dimension numbers of an M×K by K×N product (contract the left operand's second axis with the
  right operand's first; no batch axes) the entry (i, j) of the product is the sum over k of
  lhs (i, k) · rhs (k, j): stated once for a `tpu.matmul` accumulating into the zero splat and once for
  the host's `dot_general`, for any extents M, K, N. The contraction index of such a product has one
  axis of extent K, and the sum over it is re-indexed by that coordinate.
-/
import Idealize.ShloMosaic.Lib.ValueIdx
import Idealize.ShloMosaic.PureOps.Ideal.Laws

noncomputable section

open scoped BigOperators

namespace Idealize.ShloMosaic.PlainDot

open Idealize.ShloMosaic Idealize.ShloMosaic.ValueIdx

variable {M K N : Nat}

/-- The left operand's row coordinate is the result's row coordinate. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction coordinate. -/
theorem lhs_col (j : (⟨2, ![M, N]⟩ : Shape).Idx) (q : (DotDims.plain M K N).contr.Idx) :
    ((DotDims.plain M K N).lhsIdx j q 1).val = (q ⟨0, show 0 < (DotDims.plain M K N).contr.rank from Nat.one_pos⟩).val :=
  (DotDims.plain M K N).lhsIdx_val_of_single rfl j q

/-- The right operand's row coordinate is the contraction coordinate. -/
theorem rhs_row (j : (⟨2, ![M, N]⟩ : Shape).Idx) (q : (DotDims.plain M K N).contr.Idx) :
    ((DotDims.plain M K N).rhsIdx j q 0).val = (q ⟨0, show 0 < (DotDims.plain M K N).contr.rank from Nat.one_pos⟩).val :=
  (DotDims.plain M K N).rhsIdx_val_of_single rfl j q

/-- The right operand's column coordinate is the result's column coordinate. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the contraction index of a plain product is the sum over k of lhs (i, k) · rhs (k, j). -/
theorem sum_contr (lhs : (⟨2, ![M, K]⟩ : Shape).Idx → EReal) (rhs : (⟨2, ![K, N]⟩ : Shape).Idx → EReal)
    (i : Fin M) (j : Fin N) :
    (∑ q : (DotDims.plain M K N).contr.Idx,
        lhs ((DotDims.plain M K N).lhsIdx (ix2 i j) q) * rhs ((DotDims.plain M K N).rhsIdx (ix2 i j) q))
      = ∑ k : Fin K, lhs (ix2 i k) * rhs (ix2 k j) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => exact lhs_row _ _
      | ⟨1, _⟩ => exact (lhs_col _ _).trans hk)
  have er : (DotDims.plain M K N).rhsIdx (ix2 i j) ((contrEquiv1 (DotDims.plain M K N) K rfl rfl).symm k) = ix2 k j :=
    funext fun a => Fin.ext (by
      match a with
      | ⟨0, _⟩ => exact (rhs_row _ _).trans hk
      | ⟨1, _⟩ => exact rhs_col _ _)
  rw [el, er]

/-- A `tpu.matmul` of plain dimension numbers into the zero splat, at (i, j): the sum over k of the products. -/
theorem matmul_zero_apply {φ₁ φ₂ : FTy} (prec : Option ContractPrecision)
    (lhs : FVec Ideal ⟨2, ![M, K]⟩ φ₁) (rhs : FVec Ideal ⟨2, ![K, N]⟩ φ₂) (i : Fin M) (j : Fin N) :
    FloatOps.matmul (DotDims.plain M K N) prec lhs rhs (constant ⟨2, ![M, N]⟩ .f32 0x00000000#32) (ix2 i j)
      = ∑ k : Fin K, lhs (ix2 i k) * rhs (ix2 k j) :=
  (Ideal.matmul_constant_zero_apply (DotDims.plain M K N) prec lhs rhs (ix2 i j)).trans (sum_contr lhs rhs i j)

/-- The host's `dot_general` of plain dimension numbers, at (i, j): the same sum. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (i : Fin M) (j : Fin N) :
    FloatOps.dotGeneral (DotDims.plain M K N) prec sched lhs rhs (ix2 i j)
      = ∑ k : Fin K, lhs (ix2 i k) * rhs (ix2 k j) :=
  (Ideal.dotGeneral_apply (DotDims.plain M K N) prec sched lhs rhs (ix2 i j)).trans (sum_contr lhs rhs i j)

end Idealize.ShloMosaic.PlainDot

end
-- ==== Proof.KIValue.lean ====
/-
  What the matmul region leaves in its output array, at the extended reals.

  The region runs over 32 grid points; at point t the body multiplies rows 2048·t … 2048·t + 2047 of the flattened
  activations (65536 × 1024) by the whole weight matrix (1024 × 9) and writes the 2048 × 9 product back as block t of the
  output array. A change of float format is the identity here and the accumulator is the zero splat, so entry (r, l) of
  the output array ends at Σₖ x(r, k) · w(k, l) (`final`): each written block is the restriction of that one function
  (`flushed_eq`), and the 32 blocks cover the 65536 rows (`cover`).
-/
import proofs.«148638_j44306882625826_1_alg».proof.Proof.KIFrameDefs
import proofs.«148638_j44306882625826_1_alg».proof.Proof.LibPlainDot
import Idealize.ShloMosaic.Lib.Pipeline.Value
import Idealize.ShloMosaic.Lib.ValueIdx

set_option maxRecDepth 16384

noncomputable section

open scoped BigOperators

namespace Cert.KernelIdeal.Val

open Cert.KernelIdeal Cert.KernelIdeal.Gen Cert.KernelIdeal.Fr
open Idealize.ShloMosaic Idealize.ShloMosaic.TcCoe Idealize.ShloMosaic.ValueIdx
open Idealize.SL Idealize.SL.Sem
open Idealize.ShloMosaic.Pipeline (Dat Cfg Window)

theorem hz : (![0, 0] : Fin 2 → Nat) = fun _ => 0 := funext fun a => by fin_cases a <;> rfl

/-- The product of the flattened activations with the weights: entry (r, l) is Σₖ x(r, k) · w(k, l). -/
def prodG (xr : S65536x1024.Idx → EReal) (w : S1024x9.Idx → EReal) : S65536x9.Idx → EReal :=
  fun i => ∑ k : Fin 1024, xr (ix2 (⟨(i 0).val, idx2_lt0 i⟩ : Fin 65536) k) * w (ix2 k (⟨(i 1).val, idx2_lt1 i⟩ : Fin 9))

theorem prodG_apply (xr : S65536x1024.Idx → EReal) (w : S1024x9.Idx → EReal) (r : Fin 65536) (l : Fin 9) :
    prodG xr w (ix2 r l) = ∑ k : Fin 1024, xr (ix2 r k) * w (ix2 k l) := rfl

/-- The body's payload at (p, q): the bf16 roundings and the self shape cast are the identity, the matrix unit's
    contraction into the zero splat is the plain sum of products. -/
theorem pay_apply (x0 : Vec Ideal S2048x1024 .f32) (x1 : Vec Ideal S1024x9 .f32) (p : Fin 2048) (q : Fin 9) :
    k0_pay1 x0 x1 (ix2 p q) = ∑ k : Fin 1024, x0 (ix2 p k) * x1 (ix2 k q) := by
  unfold k0_pay1
  refine (PlainDot.matmul_zero_apply (M := 2048) (K := 1024) (N := 9) none _ _ p q).trans ?_
  refine Finset.sum_congr rfl fun k _ => ?_
  rw [truncf_apply, truncf_apply, shapeCast_self]

/-- The printed index maps over the grid: the activations' and the output's blocks move with the point, the weights' block stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- One block of the product: if `x0` holds rows 2048·tv … of `xr` and `x1` is `w`, the body's payload at (p, q) is the
    product's entry (2048·tv + p, q). -/
theorem pay_block (xr : S65536x1024.Idx → EReal) (w : S1024x9.Idx → EReal) (x0 : Vec Ideal S2048x1024 .f32)
    (x1 : Vec Ideal S1024x9 .f32) (r : Fin 65536) (p : Fin 2048) (q : Fin 9)
    (h0 : ∀ k : Fin 1024, x0 (ix2 p k) = xr (ix2 r k)) (h1 : ∀ k : Fin 1024, x1 (ix2 k q) = w (ix2 k q)) :
    k0_pay1 x0 x1 (ix2 p q) = prodG xr w (ix2 r q) := by
  rw [pay_apply, prodG_apply]
  exact Finset.sum_congr rfl fun k _ => by rw [h0 k, h1 k]

variable (m : (ℓ : Loc nD τ sig) → Buf (Elt Ideal) ℓ)

/-- An element of the activations' block at point `t` is the array's element 2048·t rows further down. -/
theorem iblk0_apply (c : Dev nD) (t : Fin cfg0.N) (p : Fin 2048) (k : Fin 1024) (r : Fin 65536) (hr : r.val = t.val * 2048 + p.val) :
    iblk m c 0 t (ix2 p k) = V m c main_v0 (ix2 r k) := by
  show V m c main_v0 (((cfg0.win 0).blk t).view.emb (ix2 p k)) = V m c main_v0 (ix2 r k)
  refine congrArg _ (funext fun a => Fin.ext ?_)
  obtain ⟨e0, e1, -, -, -, -⟩ := idx_facts t
  match a with
  | ⟨0, _⟩ => show win0_0.index t (0 : Fin 2) * 2048 + 1 * p.val = r.val; omega
  | ⟨1, _⟩ => show win0_0.index t (1 : Fin 2) * 1024 + 1 * k.val = k.val; omega

/-- The weights' block at any point is the whole weight array. -/
theorem iblk1_apply (c : Dev nD) (t : Fin cfg0.N) (k : Fin 1024) (q : Fin 9) :
    iblk m c 1 t (ix2 k q) = V m c main_arg1 (ix2 k q) := by
  show V m c main_arg1 (((cfg0.win 1).blk t).view.emb (ix2 k q)) = V m c main_arg1 (ix2 k q)
  refine congrArg _ (funext fun a => Fin.ext ?_)
  obtain ⟨-, -, e2, e3, -, -⟩ := idx_facts t
  match a with
  | ⟨0, _⟩ => show win0_1.index t (0 : Fin 2) * 1024 + 1 * k.val = k.val; omega
  | ⟨1, _⟩ => show win0_1.index t (1 : Fin 2) * 9 + 1 * q.val = q.val; omega

/-- What point `t` writes back is block `t` of the product of the arrays the region finds. -/
theorem flushed_eq (c : Dev nD) (t : Fin cfg0.N) :
    (dats m 0 c).flushed 2 t = ((cfg0.win 2).blk t).view.read (Elt Ideal) (prodG (V m c main_v0) (V m c main_arg1)) := by
  show (cfg0.win 2).cut (grid0.coords t) ((dats m 0 c).after 2 t) = _
  rw [after0_2]
  unfold out0_2
  rw [View.canon_unit_zero hz]
  simp only [View.ld_unit_zero (S := S2048x1024) hz, View.ld_unit_zero (S := S1024x9) hz]
  funext j
  obtain ⟨p, q, rfl⟩ : ∃ (p : Fin 2048) (q : Fin 9), j = ix2 p q := ⟨j 0, j 1, eq_ix2 j⟩
  have ht : t.val < 32 := by have h := t.isLt; have hN : cfg0.N = 32 := N_0; omega
  have hr : t.val * 2048 + p.val < 65536 := by have := p.isLt; omega
  refine (pay_block (V m c main_v0) (V m c main_arg1) (iblk m c 0 t) (iblk m c 1 t) ⟨t.val * 2048 + p.val, hr⟩ p q
    (fun k => iblk0_apply m c t p k _ rfl) (fun k => iblk1_apply m c t k q)).trans ?_
  show prodG (V m c main_v0) (V m c main_arg1) (ix2 ⟨t.val * 2048 + p.val, hr⟩ q)
    = prodG (V m c main_v0) (V m c main_arg1) (((cfg0.win 2).blk t).view.emb (ix2 p q))
  refine congrArg _ (funext fun a => Fin.ext ?_)
  obtain ⟨-, -, -, -, e4, e5⟩ := idx_facts t
  match a with
  | ⟨0, _⟩ => show t.val * 2048 + p.val = win0_2.index t (0 : Fin 2) * 2048 + 1 * p.val; omega
  | ⟨1, _⟩ => show q.val = win0_2.index t (1 : Fin 2) * 9 + 1 * q.val; omega

/-- An index of the output array is in point `t`'s block iff each coordinate is in the block's range on its axis. -/
theorem mem_blk (t : Fin cfg0.N) (i : S65536x9.Idx) :
    i ∈ ((cfg0.win 2).blk t).view.set ↔ ∀ a : Fin 2, win0_2.index t a * S2048x9.size a ≤ (i a).val ∧ (i a).val < win0_2.index t a * S2048x9.size a + S2048x9.size a := by
  show i ∈ ((View.whole main_v1).slice (win0_2.rect t)).set ↔ _
  rw [View.set_slice_whole, Rect.mem_set_unit]
  exact Iff.rfl

/-- Every row of the output array lies in the block of the point `row / 2048`. -/
theorem cover (i : S65536x9.Idx) : ∃ t : Fin cfg0.N, (cfg0.win 2).flush t = true ∧ i ∈ ((cfg0.win 2).blk t).view.set := by
  have hi0 : (i 0).val < 65536 := idx2_lt0 i
  have hi1 : (i 1).val < 9 := idx2_lt1 i
  have hN : cfg0.N = 32 := N_0
  refine ⟨⟨(i 0).val / 2048, by rw [hN]; omega⟩, flush0_2 _, ?_⟩
  rw [mem_blk]
  obtain ⟨-, -, -, -, e4, e5⟩ := idx_facts ⟨(i 0).val / 2048, by rw [hN]; omega⟩
  intro a
  match a with
  | ⟨0, _⟩ => show win0_2.index _ (0 : Fin 2) * 2048 ≤ (i 0).val ∧ (i 0).val < win0_2.index _ (0 : Fin 2) * 2048 + 2048; rw [e4]; show (i 0).val / 2048 * 2048 ≤ (i 0).val ∧ (i 0).val < (i 0).val / 2048 * 2048 + 2048; omega
  | ⟨1, _⟩ => show win0_2.index _ (1 : Fin 2) * 9 ≤ (i 1).val ∧ (i 1).val < win0_2.index _ (1 : Fin 2) * 9 + 9; rw [e5]; omega

/-- The output array after the region: the product of the flattened activations with the weights. -/
theorem final (c : Dev nD) : (dats m 0 c).arrAt 2 cfg0.N = prodG (V m c main_v0) (V m c main_arg1) :=
  (dats m 0 c).arrAt_eq_of_cover 2 _ (fun t _ => flushed_eq m c t) cover

end Cert.KernelIdeal.Val

end
-- ==== Proof.KIProj.lean ====
/-
  The projected array as the kernel program's host tail reads it.

  The region's output array (65536 × 9) holds the product of the flattened activations with the weights (KIValue.lean);
  the flattening before the region and the re-laying after it are row-major, token (b, k) being row 512·b + k. So the
  re-laid array holds, at (b, k, l), the projection Σₕ x(b, k, h) · w(h, l) of token (b, k)'s hidden row, in terms of
  the argument arrays as launched.
-/
import proofs.«148638_j44306882625826_1_alg».proof.Proof.KIValue
import proofs.«148638_j44306882625826_1_alg».proof.Proof.KIFrame
import Idealize.ShloMosaic.Lib.StableHlo.Run

noncomputable section

open scoped BigOperators

namespace Cert.KernelIdeal.Val

open Cert.KernelIdeal Cert.KernelIdeal.Gen Cert.KernelIdeal.Fr
open Idealize.ShloMosaic Idealize.ShloMosaic.TcCoe Idealize.ShloMosaic.ValueIdx Idealize.ShloMosaic.StableHlo
open Idealize.SL Idealize.SL.Sem

variable (m : (ℓ : Loc nD τ sig) → Buf (Elt Ideal) ℓ)

/-- The region finds the activations flattened to 65536 rows. -/
theorem V_main_v0 (c : Dev nD) :
    (V m c main_v0 : S65536x1024.Idx → EReal)
      = shapeCast S65536x1024 (m ((c : Thread nD τ).loc main_arg0)) shapeCasts_S128x512x1024_S65536x1024 := by
  show StableHlo.after hostOps0 (fun b => m (c, b)) (Proc.devRef .tc main_v0) = _
  after_results
  rfl

/-- The re-laid output array at (b, k, l): the projection of token (b, k)'s hidden row (`x0`, `x1` the activations and the
    weights as launched). -/
theorem proj_apply (c : Dev nD) (x0 : S128x512x1024.Idx → EReal) (x1 : S1024x9.Idx → EReal)
    (h0 : m ((c : Thread nD τ).loc main_arg0) = x0) (h1 : m ((c : Thread nD τ).loc main_arg1) = x1)
    (p : S65536x9.Idx → EReal) (hp : (dats m 0 c).arrAt 2 cfg0.N = p) (b : Fin 128) (k : Fin 512) (l : Fin 9) :
    shapeCast S128x512x9 p shapeCasts_S65536x9_S128x512x9 (ix3 b k l) = ∑ h : Fin 1024, x0 (ix3 b k h) * x1 (ix2 h l) := by
  have hr : b.val * 512 + k.val < 65536 := by have := b.isLt; have := k.isLt; omega
  subst hp h0 h1
  rw [final m c, shapeCast_apply _ shapeCasts_S65536x9_S128x512x9 (ix3 b k l) (ix2 (⟨b.val * 512 + k.val, hr⟩ : Fin 65536) l) (by
      rw [Shape.rowMajor_val_two, Shape.rowMajor_val_three]; rfl),
    prodG_apply, V_main_v0, V_main_arg1]
  refine Finset.sum_congr rfl fun h _ => ?_
  rw [shapeCast_apply _ shapeCasts_S128x512x1024_S65536x1024 (ix2 (⟨b.val * 512 + k.val, hr⟩ : Fin 65536) h) (ix3 b k h) (by
      rw [Shape.rowMajor_val_two, Shape.rowMajor_val_three]; rfl)]

end Cert.KernelIdeal.Val

end
-- ==== Proof.LibTakeAlong.lean ====
/-
  `take_along_axis` along the middle axis of a rank-3 array, read at an index.

  What `jnp.take_along_axis(x, idx[:, :, None], axis=1)` of `x : [B, S, D]` at indices `idx : [B, S, 1]` lowers to:
  `stablehlo.gather` with offset_dims [2], collapsed_slice_dims [1], operand and start-indices batching dims [0],
  start_index_map [1], index_vector_dim 2 and slice_sizes [1, 1, D]. Result element (b, s, d) is the operand at
  (b, k, d), where k is the start index idx[b, s, 0] read as a signed integer and clamped into [0, S − 1], for any
  extents B, S, D and any element type.
-/
import Idealize.ShloMosaic.Lib.ValueIdx

noncomputable section

namespace Idealize.ShloMosaic.TakeAlong

open Idealize.ShloMosaic Idealize.ShloMosaic.ValueIdx

variable {α : Type}

/-- Those dimension numbers for an operand [B, S, D], start indices [B, S, 1] and a result [B, S, D]; their conditions
    `wf` are decided on a program's literal shapes. -/
abbrev dims (B S D : Nat)
    (wf : GatherDims.WF ⟨3, ![B, S, D]⟩ ⟨3, ![B, S, 1]⟩ ⟨3, ![B, S, D]⟩ [2] [1] [0] [1] [0] 2 ![1, 1, D]) :
    GatherDims ⟨3, ![B, S, D]⟩ ⟨3, ![B, S, 1]⟩ ⟨3, ![B, S, D]⟩ where
  offsetDims := [2]
  collapsedSliceDims := [1]
  operandBatchingDims := [0]
  startIndicesBatchingDims := [0]
  startIndexMap := [1]
  indexVectorDim := 2
  sliceSizes := ![1, 1, D]
  wf := wf

/-- The gather read at (b, s, d): the operand at (b, k, d), k the start index idx[b, s, 0] read signed and clamped
    into [0, S − 1]. -/
theorem gather_apply {B S D w : Nat} (hS : 0 < S)
    (wf : GatherDims.WF ⟨3, ![B, S, D]⟩ ⟨3, ![B, S, 1]⟩ ⟨3, ![B, S, D]⟩ [2] [1] [0] [1] [0] 2 ![1, 1, D])
    (x : (⟨3, ![B, S, D]⟩ : Shape).Idx → α) (idx : IVec ⟨3, ![B, S, 1]⟩ w) (b : Fin B) (s : Fin S) (d : Fin D) :
    Host.gather (dims B S D wf) x idx (ix3 b s d)
      = x (ix3 b (⟨min (idx (ix3 b s (0 : Fin 1))).toInt.toNat (S - 1), by omega⟩ : Fin S) d) := by
  unfold Host.gather
  have h0 : (dims B S D wf).start (ix3 b s d) idx (0 : Fin 3) + (dims B S D wf).batchCoord (ix3 b s d) (0 : Fin 3)
      + (dims B S D wf).offCoord (ix3 b s d) (0 : Fin 3) = b.val := by
    rw [GatherDims.start_batching _ _ _ _ (List.mem_singleton.mpr rfl),
      GatherDims.offCoord_eq_zero _ _ _ (fun h => ((GatherDims.mem_sKept _ _).mp h).2 (List.mem_singleton.mpr rfl))]
    unfold GatherDims.batchCoord
    rw [dif_pos (show (0 : Fin 3) ∈ (dims B S D wf).operandBatchingDims from List.mem_singleton.mpr rfl), Nat.zero_add, Nat.add_zero]
    rfl
  have h1 : (dims B S D wf).start (ix3 b s d) idx (1 : Fin 3) + (dims B S D wf).batchCoord (ix3 b s d) (1 : Fin 3)
      + (dims B S D wf).offCoord (ix3 b s d) (1 : Fin 3) = min (idx (ix3 b s (0 : Fin 1))).toInt.toNat (S - 1) := by
    rw [GatherDims.batchCoord_eq_zero _ _ _ (fun h => (by decide : (1 : Fin 3) ≠ 0) (List.mem_singleton.mp h)),
      GatherDims.offCoord_eq_zero _ _ _ (fun h => ((GatherDims.mem_sKept _ _).mp h).1 (List.mem_singleton.mpr rfl))]
    unfold GatherDims.start
    rw [dif_pos (show (1 : Fin 3) ∈ (dims B S D wf).startIndexMap from List.mem_singleton.mpr rfl)]
    have hsi : (dims B S D wf).siIdx (ix3 b s d) ⟨List.idxOf (1 : Fin 3) (dims B S D wf).startIndexMap,
        List.idxOf_lt_length_iff.2 (List.mem_singleton.mpr rfl)⟩ = ix3 b s (0 : Fin 1) := by
      funext c; refine Fin.ext ?_
      match c with
      | ⟨0, _⟩ => rfl
      | ⟨1, _⟩ => rfl
      | ⟨2, _⟩ => rfl
    rw [hsi]
    rfl
  have h2 : (dims B S D wf).start (ix3 b s d) idx (2 : Fin 3) + (dims B S D wf).batchCoord (ix3 b s d) (2 : Fin 3)
      + (dims B S D wf).offCoord (ix3 b s d) (2 : Fin 3) = d.val := by
    rw [GatherDims.batchCoord_eq_zero _ _ _ (fun h => (by decide : (2 : Fin 3) ≠ 0) (List.mem_singleton.mp h))]
    unfold GatherDims.start
    rw [dif_neg (fun h => (by decide : (2 : Fin 3) ≠ 1) (List.mem_singleton.mp h))]
    unfold GatherDims.offCoord
    rw [dif_pos ((GatherDims.mem_sKept _ _).mpr ⟨fun h => (by decide : (2 : Fin 3) ≠ 1) (List.mem_singleton.mp h), fun h => (by decide : (2 : Fin 3) ≠ 0) (List.mem_singleton.mp h)⟩)]
    show 0 + 0 + (ix3 b s d ((dims B S D wf).offsetDims[List.idxOf (2 : Fin 3) (dims B S D wf).sKept]'_)).val = d.val
    rw [Nat.zero_add]
    rfl
  refine congrArg x (funext fun a => Fin.ext ?_)
  match a with
  | ⟨0, _⟩ => exact h0
  | ⟨1, _⟩ => exact h1
  | ⟨2, _⟩ => exact h2

end Idealize.ShloMosaic.TakeAlong

end
-- ==== Proof.Spec.lean ====
/-
  The two programs' common shape, as functions.

  Both programs end in the same softmax over the nine classes (`smTail`: subtract the row maximum, exponentiate, divide
  by the row sum), applied to logits of the form "masked projection plus bias". The reference's logits are its own stage
  (`val_main_v13`); the kernel's are `kLogits` of the projected array: the mask times the token-gathered projection, plus
  the bias. The mask, the gather's start indices and its in-range test are the same functions of `valid_ids` in both
  programs, so they are stated once, by the reference's stages.
-/
import proofs.«148638_j44306882625826_1_alg».proof.Proof.ReadP
import proofs.«148638_j44306882625826_1_alg».proof.Proof.LibTakeAlong

noncomputable section

namespace Cert.TokProj

open Cert.ReferenceIdeal Cert.ReferenceIdeal.Gen Cert.ReferenceIdeal.ReadP
open Idealize.ShloMosaic Idealize.ShloMosaic.ValueIdx

theorem bcast_tok_cls : S128x512.BroadcastsInDim S128x512x9 (![0, 1] : Fin 2 → Fin S128x512x9.rank) := by decide
theorem bcast_scalar_cls : S_.BroadcastsInDim S128x512x9 (![] : Fin 0 → Fin S128x512x9.rank) := by decide
theorem gather9_wf : GatherDims.WF ⟨3, ![128, 512, 9]⟩ ⟨3, ![128, 512, 1]⟩ ⟨3, ![128, 512, 9]⟩ [2] [1] [0] [1] [0] 2 ![1, 1, 9] := by decide
theorem gather1024_wf : GatherDims.WF ⟨3, ![128, 512, 1024]⟩ ⟨3, ![128, 512, 1]⟩ ⟨3, ![128, 512, 1024]⟩ [2] [1] [0] [1] [0] 2 ![1, 1, 1024] := by decide

/-- The softmax over the class axis that ends both programs: e := exp (z − max(−∞, row max of z)), then e / row sum of e. -/
def smTail (z : FVec Ideal S128x512x9 .f32) : FVec Ideal S128x512x9 .f32 :=
  Host.divf (F := Ideal)
    (Host.exp (F := Ideal) (subf z (broadcastInDim S128x512x9 ![0, 1, 2] bcast_S128x512x1_S128x512x9_0_1_2
      (broadcastInDim S128x512x1 ![0, 1] bcast_S128x512_S128x512x1_0_1
        (maximumf (broadcastInDim S128x512 ![] bcast_S_S128x512 (constant (F := Ideal) S_ .f32 0xFF800000#32))
          (Host.reduce (FloatOps.maximumf (F := Ideal)) z (constant (F := Ideal) S_ .f32 0xFF800000#32) reducesTo_S128x512x9_S128x512_d2 h_S_))))))
    (broadcastInDim S128x512x9 ![0, 1, 2] bcast_S128x512x1_S128x512x9_0_1_2
      (broadcastInDim S128x512x1 ![0, 1] bcast_S128x512_S128x512x1_0_1
        (Host.reduceAdd (F := Ideal)
          (Host.exp (F := Ideal) (subf z (broadcastInDim S128x512x9 ![0, 1, 2] bcast_S128x512x1_S128x512x9_0_1_2
            (broadcastInDim S128x512x1 ![0, 1] bcast_S128x512_S128x512x1_0_1
              (maximumf (broadcastInDim S128x512 ![] bcast_S_S128x512 (constant (F := Ideal) S_ .f32 0xFF800000#32))
                (Host.reduce (FloatOps.maximumf (F := Ideal)) z (constant (F := Ideal) S_ .f32 0xFF800000#32) reducesTo_S128x512x9_S128x512_d2 h_S_))))))
          (constant (F := Ideal) S_ .f32 0x00000000#32) reducesTo_S128x512x9_S128x512_d2 h_S_)))

/-- The reference's result is the softmax of its logits stage. -/
theorem ref_tail (x0 : (⟨S128x512x1024, .f32⟩ : BufTy).Contents (Elt Ideal)) (x1 : (⟨S1024x9, .f32⟩ : BufTy).Contents (Elt Ideal))
    (x2 : (⟨S9, .f32⟩ : BufTy).Contents (Elt Ideal)) (x3 : (⟨S128x512, .i32⟩ : BufTy).Contents (Elt Ideal)) :
    val_main_v24 (F := Ideal) x0 x1 x2 x3 = smTail (val_main_v13 (F := Ideal) x0 x1 x2 x3) := rfl

/-- The kernel program's logits from the projected array `p` (already re-laid as [128, 512, 9]): the mask (the reference's
    stage, broadcast over the classes) times the rows of `p` gathered along the token axis at the sorted positions — the
    not-a-number pattern where the gather's in-range test fails —, plus the bias. -/
def kLogits (p : FVec Ideal S128x512x9 .f32) (x2 : (⟨S9, .f32⟩ : BufTy).Contents (Elt Ideal))
    (x3 : (⟨S128x512, .i32⟩ : BufTy).Contents (Elt Ideal)) : FVec Ideal S128x512x9 .f32 :=
  addf
    (mulf (broadcastInDim S128x512x9 ![0, 1, 2] bcast_S128x512x1_S128x512x9_0_1_2 (val_main_v7 (F := Ideal) x3))
      (select (broadcastInDim S128x512x9 ![0, 1] bcast_tok_cls (val_main_call1_v11 (F := Ideal) x3))
        (Host.gather (TakeAlong.dims 128 512 9 gather9_wf) p (val_main_call1_v4 (F := Ideal) x3))
        (broadcastInDim S128x512x9 ![] bcast_scalar_cls (constant (F := Ideal) S_ .f32 0x7FC00000#32))))
    (val_main_v12 (F := Ideal) x2)

end Cert.TokProj

end
-- ==== Proof.KITail.lean ====
/-
  The host lines that follow the matmul region of `KernelIdeal`, read as one term. From any contents `W` of the
  TensorCore buffers, the 73 operations leave in `main_v26` the softmax (`smTail`) of the kernel program's logits
  (`kLogits`) of three buffers of `W`: the product array `main_v1` re-laid as [128, 512, 9], `main_arg2` and `main_arg3`.
  Each operation's result is its function of the contents of its operand buffers, so the fold over the lines is the
  composition of those functions, and that composition is the stated term by unfolding definitions. At the contents the
  region leaves, `main_v1` holds the output window's array after the last grid point and the two arguments are as
  launched.
-/
import proofs.«148638_j44306882625826_1_alg».proof.Proof.KIFrame
import proofs.«148638_j44306882625826_1_alg».proof.Proof.KIFrameDefs
import proofs.«148638_j44306882625826_1_alg».proof.Proof.Spec
import Idealize.ShloMosaic.Lib.StableHlo.Run

noncomputable section

namespace Cert.KernelIdeal.Val

open Cert.KernelIdeal Cert.KernelIdeal.Gen Cert.KernelIdeal.Fr
open Idealize.ShloMosaic Idealize.ShloMosaic.TcCoe Idealize.SL.Sem

set_option maxHeartbeats 4000000 in
set_option maxRecDepth 65536 in
/-- The lines after the region from any buffer contents `W`: `main_v26` ends at the softmax of the masked, token-gathered
    projection plus bias, computed from `W` at `main_v1`, `main_arg2` and `main_arg3`. Every other buffer the lines
    read is one they wrote first. -/
theorem tail_pure (W : Valuation τ sig (Elt Ideal)) :
    StableHlo.after (List.flatten (tailOps (F := Ideal))) W (Proc.devRef .tc main_v26)
      = Cert.TokProj.smTail (Cert.TokProj.kLogits
          (shapeCast S128x512x9 (W (Proc.devRef .tc main_v1)) shapeCasts_S65536x9_S128x512x9)
          (W (Proc.devRef .tc main_arg2)) (W (Proc.devRef .tc main_arg3))) := by
  simp only [tailOps, hostOps1, hostOps1_1, hostOps1_2, hostOps1_3, hostOps1_4, hostOps1_5, List.flatten_cons, List.flatten_nil, List.append_nil, List.cons_append, List.nil_append]
  after_results_simp
  simp only [StableHlo.TRef.toBuf, StableHlo.TRef.ofBuf, cast_eq]
  unfold Cert.TokProj.smTail Cert.TokProj.kLogits
  rfl

/-- At the contents the region leaves on core `c` — the region's arrays at what the pipeline computes after the last
    point, every other buffer as the region found it —: `main_v1` is the output window's array, and `main_arg2`,
    `main_arg3` are no window's array and were not written before the region, so they are as launched. -/
theorem tail_eq (m : (ℓ : Loc nD τ sig) → Buf (Elt Ideal) ℓ) (c : Dev nD) :
    Pipeline.afterTail₀ cfgs (dats m) 0 (V0 m) tailOps c main_v26
      = Cert.TokProj.smTail (Cert.TokProj.kLogits
          (shapeCast S128x512x9 ((dats m 0 c).arrAt 2 cfg0.N) shapeCasts_S65536x9_S128x512x9)
          (m ((c : Thread nD τ).loc main_arg2)) (m ((c : Thread nD τ).loc main_arg3))) := by
  have h1 : Pipeline.withArrays spec0 c (V0 m c) (fun w => (dats m 0 c).arrAt w cfg0.N) (Proc.devRef .tc main_v1)
      = (dats m 0 c).arrAt 2 cfg0.N :=
    Pipeline.withArrays_arr spec0 launch0.win.arr_inj c _ _ 2
  have h2 : Pipeline.withArrays spec0 c (V0 m c) (fun w => (dats m 0 c).arrAt w cfg0.N) (Proc.devRef .tc main_arg2)
      = m ((c : Thread nD τ).loc main_arg2) :=
    (Pipeline.withArrays_of_ne _ c (V0 m c) _ main_arg2 (by exact (by decide : ∀ w, Pipeline.arrRef spec0 w ≠ main_arg2))).trans
      (V_main_arg2 m c)
  have h3 : Pipeline.withArrays spec0 c (V0 m c) (fun w => (dats m 0 c).arrAt w cfg0.N) (Proc.devRef .tc main_arg3)
      = m ((c : Thread nD τ).loc main_arg3) :=
    (Pipeline.withArrays_of_ne _ c (V0 m c) _ main_arg3 (by exact (by decide : ∀ w, Pipeline.arrRef spec0 w ≠ main_arg3))).trans
      (V_main_arg3 m c)
  exact (tail_pure (Pipeline.withArrays spec0 c (V0 m c) fun w => (dats m 0 c).arrAt w cfg0.N)).trans (by rw [h1, h2, h3])

end Cert.KernelIdeal.Val

end
-- ==== Proof.Sorted.lean ====
/-
  The token order both programs gather by, and why its gathers never leave the array.

  Both programs sort each row of `1 − valid` stably, carrying the positions 0 … 511 of the row along (an argsort), and
  then read the sorted positions as start indices of a gather along the token axis. A sorted entry is one of the
  carried positions, so as a signed 32-bit word it lies in [0, 511]: the wrap of negative indices leaves it alone
  (`idx_eq`), the gather's in-range test answers 1 at every token (`inrange_one`), and the clamp of the start index
  is the identity (`clamp_ofNat`).
-/
import proofs.«148638_j44306882625826_1_alg».proof.Proof.ReadP
import Idealize.ShloMosaic.Lib.ReduceAll
import Idealize.ShloMosaic.Lib.Decide

noncomputable section

namespace Cert.TokProj

open Cert.ReferenceIdeal Cert.ReferenceIdeal.Gen Cert.ReferenceIdeal.ReadP
open Idealize.ShloMosaic Idealize.ShloMosaic.ValueIdx

/-- The word of a position below 512 is not negative, and at most 511, as a signed integer; read signed and clamped
    into [0, 511] it is the position. -/
theorem word_facts : ∀ k : Fin 512, IntOp.cmpi .slt (BitVec.ofNat 32 k.val) 0#32 = 0#1
    ∧ IntOp.cmpi .sge (BitVec.ofNat 32 k.val) 0#32 = 1#1 ∧ IntOp.cmpi .sle (BitVec.ofNat 32 k.val) 511#32 = 1#1
    ∧ min (BitVec.ofNat 32 k.val).toInt.toNat (512 - 1) = k.val := by
  decide +kernel

variable (x3 : (⟨S128x512, .i32⟩ : BufTy).Contents (Elt Ideal))

/-- An entry of the argsort is the word of a position of its row. -/
theorem ord_pos (j : S128x512.Idx) : ∃ k : Fin 512, val_main_v2 (F := Ideal) x3 j = BitVec.ofNat 32 k.val := by
  unfold val_main_v2 Host.sort2
  rw [dif_pos (show (1 : Nat) < S128x512.rank by decide)]
  dsimp only
  generalize sortedFrom _ _ = k
  refine ⟨k, ?_⟩
  rw [val_main_call0_v0_apply]
  exact congrArg (fun n : Fin 512 => BitVec.ofNat 32 n.val) (Function.update_self ..)

/-- The gather's start index at token (b, s): the word of a position of the row (the wrap of negative indices does
    not apply to it). -/
theorem idx_pos (b : Fin 128) (s : Fin 512) :
    ∃ k : Fin 512, val_main_call1_v4 (F := Ideal) x3 (ix3 b s (0 : Fin 1)) = BitVec.ofNat 32 k.val := by
  obtain ⟨k, hk⟩ := ord_pos x3 (idx_main_v3 (ix3 b s (0 : Fin 1)))
  refine ⟨k, ?_⟩
  rw [val_main_call1_v4_apply, val_main_call1_v1_apply, val_main_v3_apply, hk, val_main_call1_v0_apply,
    val_main_call1_c_apply, (word_facts k).1, select_zero]

/-- The in-range test of the gather's start index answers 1 at every token. -/
theorem inrange_elem (i : S128x512x1.Idx) : val_main_call1_v10 (F := Ideal) x3 i = 1#1 := by
  obtain ⟨b, s, z, rfl⟩ : ∃ (b : Fin 128) (s : Fin 512) (z : Fin 1), i = ix3 b s z := ⟨i 0, i 1, i 2, eq_ix3 i⟩
  obtain rfl : z = 0 := Subsingleton.elim _ _
  obtain ⟨k, hk⟩ := idx_pos x3 b s
  rw [val_main_call1_v10_apply, val_main_call1_v6_apply, val_main_call1_v9_apply, hk, val_main_call1_v5_apply,
    val_main_call1_c_2_apply, val_main_call1_v8_apply, val_main_call1_v7_apply, val_main_call1_c_1_apply,
    (word_facts k).2.1, (word_facts k).2.2.1]
  decide

/-- A fold by `and` from 1 over ones is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a (List.mem_cons_self ..), show IntOp.andi (1#1 : BitVec 1) 1#1 = 1#1 by decide]
    exact foldl_andi_one f l fun n hn => h n (List.mem_cons_of_mem _ hn)

/-- The test reduced over its unit axis: still 1 at every token. -/
theorem inrange_one (j : S128x512.Idx) : val_main_call1_v11 (F := Ideal) x3 j = 1#1 := by
  unfold val_main_call1_v11
  rw [Host.reduce_eq_foldl]
  exact foldl_andi_one _ _ fun i _ => inrange_elem x3 i

/-- The clamp of a position's word into [0, 511] is the position. -/
theorem clamp_ofNat (k : Fin 512) : min (BitVec.ofNat 32 k.val).toInt.toNat (512 - 1) = k.val := (word_facts k).2.2.2

end Cert.TokProj

end
-- ==== Proof.Algebra.lean ====
/-
  The one algebraic law that joins the two programs.

  The kernel multiplies a token's projected row by its mask AFTER the contraction over the hidden axis; the reference
  multiplies the token's hidden row by the mask BEFORE it. On the extended reals a factor moves across a sum only
  when nothing is infinite, so the law is stated for real entries: μ · Σₖ aₖ·wₖ = Σₖ (aₖ·μ)·wₖ.
-/
import Mathlib.Data.EReal.Basic
import Mathlib.Algebra.BigOperators.Ring.Finset
import Mathlib.Tactic.Ring

open scoped BigOperators

namespace Cert.TokProj

/-- The coercion of the reals into the extended reals commutes with finite sums. -/
theorem coe_sum {ι : Type} (s : Finset ι) (f : ι → ℝ) : ((∑ i ∈ s, f i : ℝ) : EReal) = ∑ i ∈ s, (f i : EReal) := by
  classical
  refine Finset.induction_on s (by simp) fun a s ha ih => ?_
  rw [Finset.sum_insert ha, Finset.sum_insert ha, EReal.coe_add, ih]

/-- A real factor moves into a finite sum of products of reals, past the left factor of each product. -/
theorem mask_mul_sum {K : Nat} (μ : EReal) (a w : Fin K → EReal)
    (hμ : ∃ r : ℝ, μ = (r : EReal)) (ha : ∀ k, ∃ r : ℝ, a k = (r : EReal)) (hw : ∀ k, ∃ r : ℝ, w k = (r : EReal)) :
    μ * ∑ k, a k * w k = ∑ k, (a k * μ) * w k := by
  obtain ⟨r, rfl⟩ := hμ
  choose a' ha' using ha
  choose w' hw' using hw
  simp only [ha', hw', ← EReal.coe_mul]
  rw [← coe_sum, ← coe_sum, ← EReal.coe_mul, Finset.mul_sum]
  refine congrArg _ (Finset.sum_congr rfl fun k _ => ?_)
  ring

end Cert.TokProj
-- ==== Proof.Bridge.lean ====
/-
  The kernel program's logits are the reference's.

  Write μ(b, s) for the float mask at token (b, s) (an integer, so a real number), k(b, s) for the sorted position the
  token reads (in range by Sorted.lean, so both gathers read row k(b, s) and neither substitutes the not-a-number
  pattern), x for the activations and w for the weights. If the projected array holds p(b, k, l) = Σₕ x(b, k, h)·w(h, l),
  the kernel program's logits at (b, s, l) are μ(b, s) · p(b, k(b, s), l) + bias(l), and the reference's are
  Σₕ (x(b, k(b, s), h) · μ(b, s)) · w(h, l) + bias(l). For real activations and weights the two are equal: a real factor
  moves across a finite sum of real products (Algebra.lean).
-/
import proofs.«148638_j44306882625826_1_alg».proof.Proof.Spec
import proofs.«148638_j44306882625826_1_alg».proof.Proof.Sorted
import proofs.«148638_j44306882625826_1_alg».proof.Proof.Algebra

noncomputable section

open scoped BigOperators

namespace Cert.TokProj

open Cert.ReferenceIdeal Cert.ReferenceIdeal.Gen Cert.ReferenceIdeal.ReadP
open Idealize.ShloMosaic Idealize.ShloMosaic.ValueIdx

variable (x0 : (⟨S128x512x1024, .f32⟩ : BufTy).Contents (Elt Ideal)) (x1 : (⟨S1024x9, .f32⟩ : BufTy).Contents (Elt Ideal))
  (x2 : (⟨S9, .f32⟩ : BufTy).Contents (Elt Ideal)) (x3 : (⟨S128x512, .i32⟩ : BufTy).Contents (Elt Ideal))

/-! ## Indices -/

theorem idx7 (b : Fin 128) (s : Fin 512) : idx_main_v7 (ix3 b s (0 : Fin 1)) = ix2 b s :=
  funext fun a => Fin.ext (by match a with | ⟨0, _⟩ => rfl | ⟨1, _⟩ => rfl)
theorem idx8 (b : Fin 128) (s : Fin 512) (h : Fin 1024) : idx_main_v8 (ix3 b s h) = ix3 b s (0 : Fin 1) :=
  funext fun a => Fin.ext (by match a with | ⟨0, _⟩ => rfl | ⟨1, _⟩ => rfl | ⟨2, _⟩ => rfl)
theorem idx13 (b : Fin 128) (s : Fin 512) (h : Fin 1024) : idx_main_call1_v13 (ix3 b s h) = ix2 b s :=
  funext fun a => Fin.ext (by match a with | ⟨0, _⟩ => rfl | ⟨1, _⟩ => rfl)
theorem lidx10 (b : Fin 128) (s : Fin 512) (l : Fin 9) (h : Fin 1024) : lidx_main_v10 (ix3 b s l) h = ix3 b s h :=
  funext fun a => Fin.ext (by match a with | ⟨0, _⟩ => rfl | ⟨1, _⟩ => rfl | ⟨2, _⟩ => rfl)
theorem ridx10 (b : Fin 128) (s : Fin 512) (l : Fin 9) (h : Fin 1024) : ridx_main_v10 (ix3 b s l) h = ix2 h l :=
  funext fun a => Fin.ext (by match a with | ⟨0, _⟩ => rfl | ⟨1, _⟩ => rfl)

/-! ## The mask -/

/-- The float mask at a token is the integer mask read signed: a real number. -/
theorem mask_real (j : S128x512.Idx) : ∃ r : ℝ, val_main_v6 (F := Ideal) x3 j = (r : EReal) :=
  ⟨((val_main_v5 (F := Ideal) x3 j).toInt : ℝ), by rw [val_main_v6_apply]; rfl⟩

/-- The mask broadcast over the classes, read at (b, s, l). -/
theorem mask_cls (b : Fin 128) (s : Fin 512) (l : Fin 9) :
    broadcastInDim S128x512x9 ![0, 1, 2] bcast_S128x512x1_S128x512x9_0_1_2 (val_main_v7 (F := Ideal) x3) (ix3 b s l)
      = val_main_v6 (F := Ideal) x3 (ix2 b s) := by
  rw [broadcastInDim_apply _ bcast_S128x512x1_S128x512x9_0_1_2 _ (ix3 b s l) (ix3 b s (0 : Fin 1)) (fun a => match a with
    | ⟨0, _⟩ => by show b.val = if (128 : Nat) = 1 then 0 else b.val; rw [if_neg (by decide)]
    | ⟨1, _⟩ => by show s.val = if (512 : Nat) = 1 then 0 else s.val; rw [if_neg (by decide)]
    | ⟨2, _⟩ => by show 0 = if (1 : Nat) = 1 then 0 else l.val; rw [if_pos rfl]),
    val_main_v7_apply, idx7]

/-- The in-range bit broadcast over the classes, read at (b, s, l): 1. -/
theorem inrange_cls (b : Fin 128) (s : Fin 512) (l : Fin 9) :
    broadcastInDim S128x512x9 ![0, 1] bcast_tok_cls (val_main_call1_v11 (F := Ideal) x3) (ix3 b s l) = 1#1 := by
  rw [broadcastInDim_apply _ bcast_tok_cls _ (ix3 b s l) (ix2 b s) (fun a => match a with
    | ⟨0, _⟩ => by show b.val = if (128 : Nat) = 1 then 0 else b.val; rw [if_neg (by decide)]
    | ⟨1, _⟩ => by show s.val = if (512 : Nat) = 1 then 0 else s.val; rw [if_neg (by decide)])]
  exact inrange_one x3 _

/-! ## The two products at a token -/

/-- The kernel program's masked, gathered projection at (b, s, l), when the token reads position k. -/
theorem kprod_apply (p : FVec Ideal S128x512x9 .f32) (b : Fin 128) (s : Fin 512) (l : Fin 9) (k : Fin 512)
    (hk : val_main_call1_v4 (F := Ideal) x3 (ix3 b s (0 : Fin 1)) = BitVec.ofNat 32 k.val) :
    mulf (broadcastInDim S128x512x9 ![0, 1, 2] bcast_S128x512x1_S128x512x9_0_1_2 (val_main_v7 (F := Ideal) x3))
      (select (broadcastInDim S128x512x9 ![0, 1] bcast_tok_cls (val_main_call1_v11 (F := Ideal) x3))
        (Host.gather (TakeAlong.dims 128 512 9 gather9_wf) p (val_main_call1_v4 (F := Ideal) x3))
        (broadcastInDim S128x512x9 ![] bcast_scalar_cls (constant (F := Ideal) S_ .f32 0x7FC00000#32))) (ix3 b s l)
      = val_main_v6 (F := Ideal) x3 (ix2 b s) * p (ix3 b k l) := by
  rw [mulf_apply, select_apply, mask_cls, inrange_cls, select_one,
    TakeAlong.gather_apply (B := 128) (S := 512) (D := 9) (by decide) gather9_wf p _ b s l]
  refine congrArg (fun q : Fin 512 => val_main_v6 (F := Ideal) x3 (ix2 b s) * p (ix3 b q l)) (Fin.ext ?_)
  show min (val_main_call1_v4 (F := Ideal) x3 (ix3 b s (0 : Fin 1))).toInt.toNat (512 - 1) = k.val
  rw [hk]; exact clamp_ofNat k

/-- The reference's gather is a gather along the token axis. -/
theorem rgather_eq : val_main_call1_v12 (F := Ideal) x0 x3
    = Host.gather (α := EReal) (TakeAlong.dims 128 512 1024 gather1024_wf) (x0 : S128x512x1024.Idx → EReal)
        (val_main_call1_v4 (F := Ideal) x3) := rfl

/-- The reference's masked, gathered activations at (b, s, h), when the token reads position k. -/
theorem rgath_apply (b : Fin 128) (s : Fin 512) (h : Fin 1024) (k : Fin 512)
    (hk : val_main_call1_v4 (F := Ideal) x3 (ix3 b s (0 : Fin 1)) = BitVec.ofNat 32 k.val) :
    val_main_v9 (F := Ideal) x0 x3 (ix3 b s h) = x0 (ix3 b k h) * val_main_v6 (F := Ideal) x3 (ix2 b s) := by
  rw [val_main_v9_apply, val_main_v4_apply, val_main_call1_v13_apply, idx13, inrange_one, select_one,
    val_main_v8_apply, idx8, val_main_v7_apply, idx7]
  rw [rgather_eq, TakeAlong.gather_apply (B := 128) (S := 512) (D := 1024) (by decide) gather1024_wf (x0 : S128x512x1024.Idx → EReal) _ b s h]
  refine congrArg (fun q : Fin 512 => x0 (ix3 b q h) * val_main_v6 (F := Ideal) x3 (ix2 b s)) (Fin.ext ?_)
  show min (val_main_call1_v4 (F := Ideal) x3 (ix3 b s (0 : Fin 1))).toInt.toNat (512 - 1) = k.val
  rw [hk]; exact clamp_ofNat k

/-! ## The logits -/

/-- For real activations and weights, if `p` is the projection of every token's hidden row, the kernel program's
    logits are the reference's logits stage. -/
theorem kLogits_eq (hx0 : ∀ i, ∃ r : ℝ, x0 i = (r : EReal)) (hx1 : ∀ i, ∃ r : ℝ, x1 i = (r : EReal))
    (p : FVec Ideal S128x512x9 .f32)
    (hp : ∀ (b : Fin 128) (k : Fin 512) (l : Fin 9), p (ix3 b k l) = ∑ h : Fin 1024, x0 (ix3 b k h) * x1 (ix2 h l)) :
    kLogits p x2 x3 = val_main_v13 (F := Ideal) x0 x1 x2 x3 := by
  funext i
  obtain ⟨b, s, l, rfl⟩ : ∃ (b : Fin 128) (s : Fin 512) (l : Fin 9), i = ix3 b s l := ⟨i 0, i 1, i 2, eq_ix3 i⟩
  obtain ⟨k, hk⟩ := idx_pos x3 b s
  unfold kLogits
  rw [addf_apply, kprod_apply x3 p b s l k hk, val_main_v13_apply, val_main_v10_apply, hp]
  refine congrArg (· + val_main_v12 (F := Ideal) x2 (ix3 b s l)) ?_
  rw [mask_mul_sum _ _ _ (mask_real x3 _) (fun h => hx0 _) (fun h => hx1 _)]
  refine Finset.sum_congr rfl fun h _ => ?_
  rw [lidx10, ridx10, rgath_apply x0 x3 b s h k hk]

end Cert.TokProj

end
-- ==== Proof.KIRun.lean ====
/-
  The idealized kernel program's run, with its result named.

  Every weakly fair execution ends with the argument arrays as launched and the result array at the softmax of the
  reference's logits stage of those arguments: the region leaves the projection (KIValue, KIProj), the host lines after
  it compute the softmax of mask × gathered projection + bias from it (KITail), and for real activations and weights
  those logits are the reference's (Bridge).
-/
import proofs.«148638_j44306882625826_1_alg».proof.Proof.KIFrame
import proofs.«148638_j44306882625826_1_alg».proof.Proof.KIProj
import proofs.«148638_j44306882625826_1_alg».proof.Proof.KITail
import proofs.«148638_j44306882625826_1_alg».proof.Proof.Bridge

noncomputable section

namespace Cert.KernelIdeal.Val

open Cert.KernelIdeal Cert.KernelIdeal.Gen Cert.KernelIdeal.Fr
open Idealize.ShloMosaic Idealize.ShloMosaic.TcCoe Idealize.ShloMosaic.ValueIdx
open Idealize.SL Idealize.SL.Sem

variable (m : (ℓ : Loc nD τ sig) → Buf (Elt Ideal) ℓ) (ρ : Dev nD → PrngReg)

/-- The result both programs compute, of the kernel program's argument arrays on core `c`. -/
def result (c : Dev nD) : Buf (Elt Ideal) ((c.tc : Thread nD τ).loc main_v26) :=
  Cert.TokProj.smTail (Cert.ReferenceIdeal.ReadP.val_main_v13 (F := Ideal) (m ((c.tc : Thread nD τ).loc main_arg0))
    (m ((c.tc : Thread nD τ).loc main_arg1)) (m ((c.tc : Thread nD τ).loc main_arg2)) (m ((c.tc : Thread nD τ).loc main_arg3)))

/-- What the host lines after the region leave in the result array, for real activations and weights. -/
theorem after_eq (c : Dev nD)
    (hx0 : ∀ i, ∃ r : ℝ, (m ((c.tc : Thread nD τ).loc main_arg0) : S128x512x1024.Idx → EReal) i = (r : EReal))
    (hx1 : ∀ i, ∃ r : ℝ, (m ((c.tc : Thread nD τ).loc main_arg1) : S1024x9.Idx → EReal) i = (r : EReal)) :
    Pipeline.afterTail₀ cfgs (dats m) 0 (V0 m) tailOps c main_v26 = result m c := by
  rw [tail_eq m c]
  unfold result
  exact congrArg Cert.TokProj.smTail
    (Cert.TokProj.kLogits_eq _ _ _ _ hx0 hx1 _ (proj_apply m c _ _ rfl rfl _ rfl))

/-- The run: the result array at `result`, the argument arrays unchanged. -/
theorem run_value
    (hx0 : ∀ (c : Dev nD) i, ∃ r : ℝ, (m ((c.tc : Thread nD τ).loc main_arg0) : S128x512x1024.Idx → EReal) i = (r : EReal))
    (hx1 : ∀ (c : Dev nD) i, ∃ r : ℝ, (m ((c.tc : Thread nD τ).loc main_arg1) : S1024x9.Idx → EReal) i = (r : EReal)) :
    θ_run defs (onTc (τ := τ) (main (F := Ideal))) ⟨m, fun _ => 0, ρ⟩ (fun r => ∀ c : Dev nD,
      r.2.mem ((c.tc : Thread nD τ).loc main_v26) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v26 (Pipeline.mem_restRefs_of main_v26 (by decide) (by decide))).trans (after_eq m c (hx0 c) (hx1 c)),
      (((h c).2 main_arg0 (Pipeline.mem_restRefs_of main_arg0 (by decide) (by decide))).trans (W_main_arg0 m (dats m) c)),
      ((h c).1 1).trans (((dats m 0 c).arrAt_in 1 rfl _).trans ((A_eq m c 1).trans (V_main_arg1 m c))),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c))⟩)
    (run_main m ρ)

end Cert.KernelIdeal.Val

end
-- ==== Proof.Finite.lean ====
/-
  The finiteness precondition read back at the ideal model: if the printed predicate holds of `(x0, x1, x2, x3)` then every
  element of `x0`, `x1` and `x2` is a real number. The predicate is the conjunction of three tests, one per float
  argument, each "every element has absolute value below +∞": a reduction by `and` from 1 over the comparisons
  `|x i| < +∞`. A conjunction that is 1 has both conjuncts 1; a reduction by `and` into a single index that is 1 met
  only 1s; and an extended real whose absolute value is below +∞ is neither +∞ nor −∞.
-/
import proofs.«148638_j44306882625826_1_alg».proof.Pre_finite_inputs
import proofs.«148638_j44306882625826_1_alg».proof.Proof.Gen.Pre_finite_inputs
import Idealize.ShloMosaic.PureOps.Ideal
import Idealize.ShloMosaic.Lib.ReduceAll
import Idealize.ShloMosaic.Lib.ValueIdx

noncomputable section

namespace Cert.TokProj

open Idealize.ShloMosaic Cert.Pre_finite_inputs

/-- The scalar shape has one index. -/
instance : Subsingleton S_.Idx := ⟨fun a b => funext fun d => d.elim0⟩

/-- An extended real whose absolute value `max x (-x)` is below +∞ is a real number: both infinities have absolute
    value +∞. -/
theorem real_of_abs_lt_top (x : EReal) (h : max x (-x) < ⊤) : ∃ r : ℝ, x = (r : EReal) := by
  induction x using EReal.rec with
  | bot => simp at h
  | coe r => exact ⟨r, rfl⟩
  | top => simp at h

/-- A boolean read as an `i1` word is 1 exactly when it is true. -/
theorem ofBool_eq_one (b : Bool) : BitVec.ofBool b = 1#1 ↔ b = true := by cases b <;> decide

/-- The f32 pattern `0x7F800000` denotes +∞. -/
theorem ofBits_inf : Ideal.ofBits .f32 0x7F800000#32 = ⊤ := by simp [Ideal.ofBits, Ideal.ieee]

/-- One element's test: the comparison `|x| < +∞` coming out 1 says `x` is real. -/
theorem real_of_test (x : Ideal .f32)
    (h : FloatOps.cmpf (F := Ideal) .olt (FloatOps.hostAbsf x) (FloatOps.ofBits .f32 0x7F800000#32) = 1#1) :
    ∃ r : ℝ, x = (r : EReal) := by
  refine real_of_abs_lt_top x ?_
  have h' : BitVec.ofBool (decide (max x (-x) < Ideal.ofBits .f32 0x7F800000#32)) = 1#1 := h
  rw [ofBits_inf, ofBool_eq_one, decide_eq_true_eq] at h'
  exact h'

/-- The precondition's content: the three float arguments are finite everywhere. -/
theorem finite_of_fn (x0 : FVec Ideal S128x512x1024 .f32) (x1 : FVec Ideal S1024x9 .f32) (x2 : FVec Ideal S9 .f32) (x3 : IVec S128x512 32)
    (h : Cert.Pre_finite_inputs.fn (F := Ideal) x0 x1 x2 x3 = fun _ => 1#1) :
    (∀ i, ∃ r : ℝ, x0 i = (r : EReal)) ∧ (∀ i, ∃ r : ℝ, x1 i = (r : EReal)) ∧ (∀ i, ∃ r : ℝ, x2 i = (r : EReal)) := by
  have h0 := congrFun h ValueIdx.ix0
  dsimp only [Cert.Pre_finite_inputs.fn, andi] at h0
  obtain ⟨h01, h2⟩ := IntOp.andi_eq_one.1 h0
  obtain ⟨h0', h1⟩ := IntOp.andi_eq_one.1 h01
  refine ⟨fun i => real_of_test (x0 i) ?_, fun i => real_of_test (x1 i) ?_, fun i => real_of_test (x2 i) ?_⟩
  · exact Host.reduce_andi_all _ _ _ _ _ h0' i
  · exact Host.reduce_andi_all _ _ _ _ _ h1 i
  · exact Host.reduce_andi_all _ _ _ _ _ h2 i

end Cert.TokProj

end
-- ==== Proof.lean ====
/-
  The certificate of the token-projection kernel against its reference: the three frames, the (empty) idealization
  ledger, and the equality of the two idealized programs' results on the extended reals.

  The kernel program flattens the activations x (128 × 512 × 1024) to 65536 rows, multiplies them by the weights w
  (1024 × 9) in one matmul region of 32 grid points, re-lays the product as 128 × 512 × 9, and then, on the host: sorts
  each row of 1 − valid stably carrying the positions (an argsort), gathers the projected rows and the mask along the
  token axis at the sorted positions, multiplies by the mask, adds the bias and takes the softmax over the nine classes.
  The reference gathers the ACTIVATIONS at the same positions, multiplies them by the same mask, contracts with w, adds
  the bias and takes the same softmax. At the extended reals (a change of float format the identity, every sum exact) the
  two logits agree whenever the activations and the weights are real numbers, which the precondition says: the mask is
  an integer, a real factor moves across a finite sum of real products, and a gather of rows commutes with a
  contraction over the other axis; the sorted positions are positions, so neither gather leaves its array.
  The frames of the two kernel programs are read off the region's frame run and the host lines around it; the
  reference's frame and value are its run, read one operation at a time.
-/
import proofs.«148638_j44306882625826_1_alg».proof.Defs
import proofs.«148638_j44306882625826_1_alg».proof.Proof.Gen.Kernel
import proofs.«148638_j44306882625826_1_alg».proof.Proof.Gen.KernelIdeal
import proofs.«148638_j44306882625826_1_alg».proof.Proof.Gen.ReferenceIdeal
import proofs.«148638_j44306882625826_1_alg».proof.Proof.Gen.Pre_finite_inputs
import proofs.«148638_j44306882625826_1_alg».proof.Proof.KFrame
import proofs.«148638_j44306882625826_1_alg».proof.Proof.KIRun
import proofs.«148638_j44306882625826_1_alg».proof.Proof.Finite
import Idealize.ShloMosaic.Adequacy
import Idealize.ShloMosaic.Init

noncomputable section

namespace Cert.Proof

open Idealize.ShloMosaic Idealize.ShloMosaic.TcCoe Idealize.SL.Sem

/-- The word-level kernel program runs to the end and leaves its arguments as launched. -/
theorem frame_k : Cert.frame_Kernel := fun m ρ _ => Cert.Kernel.Fr.frame m ρ

/-- So does the idealized kernel program. -/
theorem frame_ki : Cert.frame_KernelIdeal := fun m ρ _ => Cert.KernelIdeal.Fr.frame m ρ

/-- The reference is host operations only: its frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The ideal pass rewrote nothing. -/
theorem preserves : Cert.preserves_Kernel_KernelIdeal := trivial

/-- From memories that agree on the arguments, real activations and weights: both programs end with the result array at
    the softmax of the same logits. -/
theorem algebraic : Cert.algebraic_KernelIdeal_ReferenceIdeal := by
  intro m ρ m' ρ' hpre hagree
  have hfin := fun c => Cert.TokProj.finite_of_fn _ _ _ _ (hpre c)
  refine ⟨Cert.KernelIdeal.Val.result m, Cert.KernelIdeal.Val.run_value m ρ (fun c => (hfin c).1) (fun c => (hfin c).2.1), ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v24_eq, Cert.TokProj.ref_tail, (hagree c).1, (hagree c).2.1, (hagree c).2.2.1,
    (hagree c).2.2.2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
